-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 91
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x64, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .i1⟩
  | 89 => ⟨S_, .f32⟩
  | 90 => ⟨S_, .f32⟩
  | 91 => ⟨S100000, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x64, .f32⟩
  | 15 => ⟨S100000x64, .f32⟩
  | 16 => ⟨S100000x64, .f32⟩
  | 17 => ⟨S_, .f32⟩
  | 18 => ⟨S100000, .f32⟩
  | 19 => ⟨S100000x1, .f32⟩
  | 20 => ⟨S100000x1, .f32⟩
  | 21 => ⟨S100000x64, .f32⟩
  | 22 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_call3_v0 : Ref sig .tc := ⟨.hbm, 90, rfl⟩
abbrev main_call3_v1 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_call4_v0 : Ref sig .tc := ⟨.hbm, 95, rfl⟩
abbrev main_call4_v1 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_21 : Ref sig .tc := ⟨.hbm, 117, rfl⟩
abbrev main_v78 : Ref sig .tc := ⟨.hbm, 118, rfl⟩
abbrev main_v79 : Ref sig .tc := ⟨.hbm, 119, rfl⟩
abbrev main_c_22 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_23 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call5_cst : Ref sig .tc := ⟨.hbm, 136, rfl⟩
abbrev main_call5_v0 : Ref sig .tc := ⟨.hbm, 137, rfl⟩
abbrev main_call5_cst_0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_cst_1 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_v94 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its RESULT named. The program is eleven segments — five stretches of host operations,
  the first matrix product, one more stretch, the bias-and-rectifier pass and the second matrix product back to back, one
  more stretch, the bias-and-log-softmax pass — and the contents of every unscoped buffer at each segment boundary are a
  fold from the launch memory. Every weakly fair execution terminates, nothing faulting, in a state whose result buffer
  holds what that fold gives it at the last boundary, and whose argument buffers hold what they were launched with.
-/
import proofs.«154892_j29961691857024_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Layers

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.LibSkipWrites.lean ====
/-
  Reading a buffer through host operations that do not write it: for a literal list of operations none of which
  writes the buffer `b`, the contents after the list are the contents before it.
-/
import Idealize.ShloMosaic.Lib.StableHlo.Run

open Idealize.ShloMosaic

/-- Closes `StableHlo.after ops V b = V b` for a literal list `ops` (given by the names to unfold) none of whose
    operations writes `b`: each operation writes one buffer, and that buffer is another one. -/
macro "skip_writes" "[" ls:Lean.Parser.Tactic.simpLemma,* "]" : tactic => `(tactic|
  (refine StableHlo.after_of_forall_not_mem _ _ (List.forall_iff_forall_mem.mp ?_)
   simp only [$ls,*, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))
-- ==== Proof.KernelEntry.lean ====
/-
  What the first pallas_call finds. Before it the host builds, from the edge list alone, the two index vectors (sources
  and destinations, each followed by the self loops 0 … 99999), the degree of every node (a scatter-add of ones at the
  destinations), its inverse square root where the degree is positive and zero elsewhere, and the edge weight
  norm = dis[src] · dis[dst]. These are the same operations, in the same order, as the reference's first forty-odd
  operations, so each of these buffers holds the reference's stage function of the edge list; and no operation writes an
  argument array, so the arguments are as launched.
  The first twenty operations hold the two concatenations and are read as they stand; the rest are read from ANY contents
  that have those six buffers at the reference's values.
-/
import proofs.«154892_j29961691857024_1_alg».proof.Proof.Gen.KernelIdeal.Frame
import proofs.«154892_j29961691857024_1_alg».proof.Proof.ReferenceRead
import proofs.«154892_j29961691857024_1_alg».proof.Proof.LibCallBuffers
import proofs.«154892_j29961691857024_1_alg».proof.Proof.LibSkipWrites

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Reads a buffer after a literal list of operations: one pass over the list, then the operations inside a
    concatenation's operands, which the pass leaves. -/
local macro "read_results" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-! ## After the first twenty operations -/

theorem first_src (c : Dev nD) : W1 m ρ c (Proc.devRef .tc main_v3)
    = Cert.ReferenceIdeal.ReadP.val_main_v3 (F := Ideal) (m ((c.tc : Thread nD τ).loc main_arg1)) := by
  dsimp only [W1, hostOps0]; read_results; rfl
theorem first_dst (c : Dev nD) : W1 m ρ c (Proc.devRef .tc main_v6)
    = Cert.ReferenceIdeal.ReadP.val_main_v6 (F := Ideal) (m ((c.tc : Thread nD τ).loc main_arg1)) := by
  dsimp only [W1, hostOps0]; read_results; rfl
theorem first_deg (c : Dev nD) : W1 m ρ c (Proc.devRef .tc main_v10)
    = Cert.ReferenceIdeal.ReadP.val_main_v11 (F := Ideal) (m ((c.tc : Thread nD τ).loc main_arg1)) := by
  dsimp only [W1, hostOps0]; read_results; rfl
theorem first_pos (c : Dev nD) : W1 m ρ c (Proc.devRef .tc main_v12)
    = Cert.ReferenceIdeal.ReadP.val_main_v13 (F := Ideal) (m ((c.tc : Thread nD τ).loc main_arg1)) := by
  dsimp only [W1, hostOps0]; read_results; rfl
theorem first_pos' (c : Dev nD) : W1 m ρ c (Proc.devRef .tc main_v14)
    = Cert.ReferenceIdeal.ReadP.val_main_v15 (F := Ideal) (m ((c.tc : Thread nD τ).loc main_arg1)) := by
  dsimp only [W1, hostOps0]; read_results; rfl
theorem first_one (c : Dev nD) : W1 m ρ c (Proc.devRef .tc main_cst_3) = Cert.ReferenceIdeal.ReadP.val_main_cst_3 (F := Ideal) := by
  dsimp only [W1, hostOps0]; read_results; rfl

/-! ## The edge weight, from any contents with the six buffers at the reference's values -/

theorem norm_from (Wa : Valuation τ sig (Elt Ideal)) (xe : (⟨Cert.ReferenceIdeal.S2x1600000, .i32⟩ : BufTy).Contents (Elt Ideal))
    (h3 : Wa (Proc.devRef .tc main_v3) = Cert.ReferenceIdeal.ReadP.val_main_v3 (F := Ideal) xe)
    (h6 : Wa (Proc.devRef .tc main_v6) = Cert.ReferenceIdeal.ReadP.val_main_v6 (F := Ideal) xe)
    (h10 : Wa (Proc.devRef .tc main_v10) = Cert.ReferenceIdeal.ReadP.val_main_v11 (F := Ideal) xe)
    (h12 : Wa (Proc.devRef .tc main_v12) = Cert.ReferenceIdeal.ReadP.val_main_v13 (F := Ideal) xe)
    (h14 : Wa (Proc.devRef .tc main_v14) = Cert.ReferenceIdeal.ReadP.val_main_v15 (F := Ideal) xe)
    (hc : Wa (Proc.devRef .tc main_cst_3) = Cert.ReferenceIdeal.ReadP.val_main_cst_3 (F := Ideal)) :
    StableHlo.after hostOps0_4 (StableHlo.after hostOps0_3 (StableHlo.after hostOps0_2 (StableHlo.after hostOps0_1 Wa))) (Proc.devRef .tc main_v32)
      = Cert.ReferenceIdeal.ReadP.val_main_v33 (F := Ideal) xe := by
  dsimp only [hostOps0_1, hostOps0_2, hostOps0_3, hostOps0_4]
  after_results_simp
  simp only [TRef.ofBuf, TRef.toBuf, cast_eq]
  rw [h3, h6, h10, h12, h14, hc]
  rfl

/-- The four stretches after the first twenty operations as one list. -/
theorem rest_eq (Wa : Valuation τ sig (Elt Ideal)) :
    StableHlo.after hostOps0_4 (StableHlo.after hostOps0_3 (StableHlo.after hostOps0_2 (StableHlo.after hostOps0_1 Wa)))
      = StableHlo.after (hostOps0_1 ++ hostOps0_2 ++ hostOps0_3 ++ hostOps0_4) Wa := by
  simp only [after_append]

/-- They write neither index vector. -/
theorem rest_keeps_src (Wa : Valuation τ sig (Elt Ideal)) :
    StableHlo.after hostOps0_4 (StableHlo.after hostOps0_3 (StableHlo.after hostOps0_2 (StableHlo.after hostOps0_1 Wa))) (Proc.devRef .tc main_v3)
      = Wa (Proc.devRef .tc main_v3) := by
  rw [rest_eq]; skip_writes [hostOps0_1, hostOps0_2, hostOps0_3, hostOps0_4]
theorem rest_keeps_dst (Wa : Valuation τ sig (Elt Ideal)) :
    StableHlo.after hostOps0_4 (StableHlo.after hostOps0_3 (StableHlo.after hostOps0_2 (StableHlo.after hostOps0_1 Wa))) (Proc.devRef .tc main_v6)
      = Wa (Proc.devRef .tc main_v6) := by
  rw [rest_eq]; skip_writes [hostOps0_1, hostOps0_2, hostOps0_3, hostOps0_4]

/-! ## At the first pallas_call's entry -/

theorem entry_src (c : Dev nD) : W5 m ρ c (Proc.devRef .tc main_v3)
    = Cert.ReferenceIdeal.ReadP.val_main_v3 (F := Ideal) (m ((c.tc : Thread nD τ).loc main_arg1)) :=
  (rest_keeps_src (W1 m ρ c)).trans (first_src m ρ c)
theorem entry_dst (c : Dev nD) : W5 m ρ c (Proc.devRef .tc main_v6)
    = Cert.ReferenceIdeal.ReadP.val_main_v6 (F := Ideal) (m ((c.tc : Thread nD τ).loc main_arg1)) :=
  (rest_keeps_dst (W1 m ρ c)).trans (first_dst m ρ c)
theorem entry_norm (c : Dev nD) : W5 m ρ c (Proc.devRef .tc main_v32)
    = Cert.ReferenceIdeal.ReadP.val_main_v33 (F := Ideal) (m ((c.tc : Thread nD τ).loc main_arg1)) :=
  norm_from (W1 m ρ c) (m ((c.tc : Thread nD τ).loc main_arg1)) (first_src m ρ c) (first_dst m ρ c) (first_deg m ρ c)
    (first_pos m ρ c) (first_pos' m ρ c) (first_one m ρ c)

/-- All forty-seven operations as one list. -/
theorem entry_eq (c : Dev nD) : W5 m ρ c
    = StableHlo.after (hostOps0 ++ hostOps0_1 ++ hostOps0_2 ++ hostOps0_3 ++ hostOps0_4) (W0 m ρ c) := by
  show StableHlo.after hostOps0_4 (StableHlo.after hostOps0_3 (StableHlo.after hostOps0_2 (StableHlo.after hostOps0_1 (StableHlo.after hostOps0 (W0 m ρ c))))) = _
  simp only [after_append]

theorem entry_arg0 (c : Dev nD) : W5 m ρ c (Proc.devRef .tc main_arg0) = m ((c.tc : Thread nD τ).loc main_arg0) := by
  rw [entry_eq]
  exact (by skip_writes [hostOps0, hostOps0_1, hostOps0_2, hostOps0_3, hostOps0_4] :
    StableHlo.after (hostOps0 ++ hostOps0_1 ++ hostOps0_2 ++ hostOps0_3 ++ hostOps0_4) (W0 m ρ c) (Proc.devRef .tc main_arg0) = W0 m ρ c (Proc.devRef .tc main_arg0))
theorem entry_arg2 (c : Dev nD) : W5 m ρ c (Proc.devRef .tc main_arg2) = m ((c.tc : Thread nD τ).loc main_arg2) := by
  rw [entry_eq]
  exact (by skip_writes [hostOps0, hostOps0_1, hostOps0_2, hostOps0_3, hostOps0_4] :
    StableHlo.after (hostOps0 ++ hostOps0_1 ++ hostOps0_2 ++ hostOps0_3 ++ hostOps0_4) (W0 m ρ c) (Proc.devRef .tc main_arg2) = W0 m ρ c (Proc.devRef .tc main_arg2))
theorem entry_arg3 (c : Dev nD) : W5 m ρ c (Proc.devRef .tc main_arg3) = m ((c.tc : Thread nD τ).loc main_arg3) := by
  rw [entry_eq]
  exact (by skip_writes [hostOps0, hostOps0_1, hostOps0_2, hostOps0_3, hostOps0_4] :
    StableHlo.after (hostOps0 ++ hostOps0_1 ++ hostOps0_2 ++ hostOps0_3 ++ hostOps0_4) (W0 m ρ c) (Proc.devRef .tc main_arg3) = W0 m ρ c (Proc.devRef .tc main_arg3))
theorem entry_arg4 (c : Dev nD) : W5 m ρ c (Proc.devRef .tc main_arg4) = m ((c.tc : Thread nD τ).loc main_arg4) := by
  rw [entry_eq]
  exact (by skip_writes [hostOps0, hostOps0_1, hostOps0_2, hostOps0_3, hostOps0_4] :
    StableHlo.after (hostOps0 ++ hostOps0_1 ++ hostOps0_2 ++ hostOps0_3 ++ hostOps0_4) (W0 m ρ c) (Proc.devRef .tc main_arg4) = W0 m ρ c (Proc.devRef .tc main_arg4))
theorem entry_arg5 (c : Dev nD) : W5 m ρ c (Proc.devRef .tc main_arg5) = m ((c.tc : Thread nD τ).loc main_arg5) := by
  rw [entry_eq]
  exact (by skip_writes [hostOps0, hostOps0_1, hostOps0_2, hostOps0_3, hostOps0_4] :
    StableHlo.after (hostOps0 ++ hostOps0_1 ++ hostOps0_2 ++ hostOps0_3 ++ hostOps0_4) (W0 m ρ c) (Proc.devRef .tc main_arg5) = W0 m ρ c (Proc.devRef .tc main_arg5))

end Cert.KernelIdeal.Layers

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibRowReshape.lean ====
/-
  A vector of b entries laid as one row: reshaping [b] to [1, b] and broadcasting [b] into [1, b] along the
  second axis are the same array — entry (0, j) is entry j.  A wrapper that reshapes a bias vector before a kernel and a
  reference that broadcasts it meet here.
-/
import Idealize.ShloMosaic.Lib.Pipeline.Value
import Idealize.ShloMosaic.Lib.ValueIdx
import proofs.«154892_j29961691857024_1_alg».proof.Proof.LibHostReads

noncomputable section

namespace Idealize.ShloMosaic.RowReshape

open Idealize.ShloMosaic Idealize.ShloMosaic.ValueIdx

/-- Reshaping a vector to a one-row matrix is placing it as that row. -/
theorem reshape_row_eq_bcast {α : Type} {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  obtain ⟨z, q, rfl⟩ : ∃ (z : Fin 1) (q : Fin b), j = ix2 z q := ⟨j 0, j 1, eq_ix2 j⟩
  rw [HostReads.bcast_toRow_apply hb v z q]
  refine (shapeCast_addUnit_apply (n := 1) ![b] v h (ix2 z q)).trans ?_
  refine congrArg v (funext fun a => ?_)
  match a with
  | ⟨0, _⟩ => rfl

end Idealize.ShloMosaic.RowReshape

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«154892_j29961691857024_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.BlockOrigin.lean ====
/-
  Every load and store of the four kernel bodies is of a whole staging buffer, the rectangle that starts at (0, 0).
-/
import Mathlib.Data.Fin.VecNotation

namespace Cert.KernelIdeal.Layers

/-- The offset (0, 0) is the zero offset. -/
theorem origin2 : (![0, 0] : Fin 2 → Nat) = fun _ => 0 :=
  funext fun a => by
    match a with
    | ⟨0, _⟩ => rfl
    | ⟨1, _⟩ => rfl

end Cert.KernelIdeal.Layers
-- ==== Proof.ProjectHidden.lean ====
/-
  The first dense projection, h = x · W1. Grid point t of the kernel loads rows 10000 t … 10000 t + 9999 of the node
  features (all 128 columns) and the whole 128 × 128 weight matrix, multiplies them into a zero accumulator, and stores
  the product as the same rows of the output. At the ideal values the change of format in front of the product is the
  identity, and entry (p, q) of a block's product is the sum over k of features (p, k) · weight (k, q); so a block is
  the restriction to its rows of ONE function of the two arrays — the host's matrix product of the whole arrays, whose
  entry (r, q) is the same sum over k. The ten blocks cover the 100000 rows, so after the ten points the output array
  IS that product, whatever the two arrays held when the pallas_call was entered.
-/
import proofs.«154892_j29961691857024_1_alg».proof.Proof.Gen.KernelIdeal.Frame
import proofs.«154892_j29961691857024_1_alg».proof.Proof.ReferenceRead
import proofs.«154892_j29961691857024_1_alg».proof.Proof.LibPlainMatmul
import proofs.«154892_j29961691857024_1_alg».proof.Proof.LibPlainDot
import proofs.«154892_j29961691857024_1_alg».proof.Proof.BlockOrigin
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

-- the contents of the TensorCore's buffers when a pallas_call is entered: any
variable (V : (c : Dev nD) → (b : Ref sig .tc) → Buf (Elt Ideal) ((c : Thread nD τ).loc b))

/-- The whole product: the reference's first `dot_general` of any two arrays of the right extents. -/
def hidden (X : FVec Ideal Cert.ReferenceIdeal.S100000x128 .f32) (Wt : FVec Ideal Cert.ReferenceIdeal.S128x128 .f32) :
    FVec Ideal Cert.ReferenceIdeal.S100000x128 .f32 :=
  Cert.ReferenceIdeal.ReadP.val_main_v7 (F := Ideal) X Wt

/-- Entry (r, q) of the whole product. -/
theorem hidden_apply (X : FVec Ideal Cert.ReferenceIdeal.S100000x128 .f32) (Wt : FVec Ideal Cert.ReferenceIdeal.S128x128 .f32)
    (r : Fin 100000) (q : Fin 128) : hidden X Wt (ix2 r q) = ∑ k : Fin 128, X (ix2 r k) * Wt (ix2 k q) :=
  PlainDot.plainDot_apply (M := 100000) (K := 128) (N := 128) none X Wt r q

/-- Entry (p, q) of one block's product. -/
theorem hiddenBlock_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) :=
  PlainMatmul.plainMatmul_apply (M := 10000) (K := 128) (N := 128) none
    (truncf .bf16 (x0 : FVec Ideal S10000x128 .f32) Facts₀.bitsLt_bf16_f32) (truncf .bf16 (x1 : FVec Ideal S128x128 .f32) Facts₀.bitsLt_bf16_f32) p q

/-- The printed index maps over the ten grid points: the features' and the output's block row is the point, every other
    block coordinate is 0. -/
theorem hidden_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 10000 t + p of the array. -/
theorem hidden_rows (c : Dev nD) (t : Fin cfg0.N) (p : Fin 10000) (k : Fin 128) (hr : t.val * 10000 + p.val < 100000) :
    iblk0 V c 0 t (ix2 p k) = V c main_arg0 (ix2 ⟨t.val * 10000 + p.val, hr⟩ k) := by
  obtain ⟨e0, e1, -, -, -, -⟩ := hidden_idx t
  show V c main_arg0 (((cfg0.win 0).blk t).view.emb (ix2 p k)) = V c main_arg0 (ix2 ⟨t.val * 10000 + p.val, hr⟩ k)
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weight's block at every point is the whole weight. -/
theorem hidden_weights (c : Dev nD) (t : Fin cfg0.N) (k : Fin 128) (q : Fin 128) :
    iblk0 V c 1 t (ix2 k q) = V c main_arg2 (ix2 k q) := by
  obtain ⟨-, -, e2, e3, -, -⟩ := hidden_idx t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of the whole product of the arrays as the pallas_call finds them. -/
theorem hidden_flushed (c : Dev nD) (t : Fin cfg0.N) :
    (dat0 (F := Ideal) V c).flushed 2 t
      = ((cfg0.win 2).blk t).view.read (Elt Ideal) (hidden (V c main_arg0) (V c main_arg2)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨-, -, -, -, e4, e5⟩ := hidden_idx t
  funext j
  obtain ⟨p, q, rfl⟩ : ∃ (p : Fin 10000) (q : Fin 128), j = ix2 p q := ⟨j 0, j 1, eq_ix2 j⟩
  have hr : t.val * 10000 + p.val < 100000 := by
    have h1 : t.val < 10 := Nat.lt_of_lt_of_eq t.isLt N_0
    have h2 := p.isLt; omega
  have hout : ((cfg0.win 2).blk t).view.emb (ix2 p q) = ix2 ⟨t.val * 10000 + p.val, hr⟩ q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (F := Ideal) (iblk0 V c 0 t) (iblk0 V c 1 t) (ix2 p q)
      = hidden (V c main_arg0) (V c main_arg2) (((cfg0.win 2).blk t).view.emb (ix2 p q))
  rw [hout]
  refine (hiddenBlock_apply (iblk0 V c 0 t) (iblk0 V c 1 t) p q).trans
    (Eq.trans ?_ (hidden_apply (V c main_arg0) (V c main_arg2) ⟨t.val * 10000 + p.val, hr⟩ q).symm)
  exact Finset.sum_congr rfl fun k _ => congrArg₂ (· * ·) (hidden_rows V c t p k hr) (hidden_weights V c t k q)

/-- An index of the output array is in point t's block iff each coordinate is in the block's range on its axis. -/
theorem hidden_mem (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v33).slice (win0_2.rect t)).set ↔ _
  rw [View.set_slice_whole, Rect.mem_set_unit]
  exact Iff.rfl

/-- Every index of the output array is in the block of the point its row falls to. -/
theorem hidden_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by rw [show cfg0.N = 10 from N_0]; omega
  obtain ⟨-, -, -, -, e4, e5⟩ := hidden_idx ⟨(i 0).val / 10000, hN⟩
  refine ⟨⟨(i 0).val / 10000, hN⟩, flush0_2 _, ?_⟩
  rw [hidden_mem]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e5]; omega

/-- After the ten points the output array is the whole product of the two arrays the pallas_call found. -/
theorem hidden_final (c : Dev nD) :
    (dat0 (F := Ideal) V c).arrAt 2 cfg0.N = hidden (V c main_arg0) (V c main_arg2) :=
  (dat0 (F := Ideal) V c).arrAt_eq_of_cover 2 (hidden (V c main_arg0) (V c main_arg2))
    (fun t _ => hidden_flushed V c t) hidden_cover

end Cert.KernelIdeal.Layers

end
-- ==== Proof.Rectify.lean ====
/-
  The bias-and-rectifier pass after the first aggregation. Grid point t loads rows 10000 t … 10000 t + 9999 of the
  aggregated features and the bias laid as one row, adds the row to every loaded row, takes the maximum with zero, and
  stores the result as the same rows of the output. Entry (p, q) of a block is max (a (p, q) + b (0, q)) 0, which is
  entry (10000 t + p, q) of ONE function of the two arrays — the reference's `relu (agg + bias)` with the bias row
  broadcast down the rows. The ten blocks cover the rows, so the output array ends as that function of the two arrays
  the pallas_call found.
-/
import proofs.«154892_j29961691857024_1_alg».proof.Proof.Gen.KernelIdeal.Frame
import proofs.«154892_j29961691857024_1_alg».proof.Proof.ReferenceRead
import proofs.«154892_j29961691857024_1_alg».proof.Proof.LibHostReads
import proofs.«154892_j29961691857024_1_alg».proof.Proof.BlockOrigin
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

-- the contents of the TensorCore's buffers when a pallas_call is entered: any
variable (V : (c : Dev nD) → (b : Ref sig .tc) → Buf (Elt Ideal) ((c : Thread nD τ).loc b))

/-- The whole pass: the reference's bias broadcast, sum and `relu` of any two arrays of the right extents. -/
def rectified (A : FVec Ideal Cert.ReferenceIdeal.S100000x128 .f32) (B : FVec Ideal Cert.ReferenceIdeal.S1x128 .f32) :
    FVec Ideal Cert.ReferenceIdeal.S100000x128 .f32 :=
  maximumf (addf A (broadcastInDim Cert.ReferenceIdeal.S100000x128 ![0, 1] Cert.ReferenceIdeal.Facts₀.bcast_S1x128_S100000x128_0_1 B))
    (Cert.ReferenceIdeal.ReadP.val_main_call2_v0 (F := Ideal))

/-- Entry (r, q) of the whole pass. -/
theorem rectified_apply (A : FVec Ideal Cert.ReferenceIdeal.S100000x128 .f32) (B : FVec Ideal Cert.ReferenceIdeal.S1x128 .f32)
    (r : Fin 100000) (q : Fin 128) :
    rectified A B (ix2 r q) = max (A (ix2 r q) + B (ix2 (0 : Fin 1) q)) (Ideal.ofBits .f32 0x00000000#32) := by
  show max (A (ix2 r q) + broadcastInDim Cert.ReferenceIdeal.S100000x128 ![0, 1] Cert.ReferenceIdeal.Facts₀.bcast_S1x128_S100000x128_0_1 B (ix2 r q))
      (Cert.ReferenceIdeal.ReadP.val_main_call2_v0 (F := Ideal) (ix2 r q)) = _
  rw [HostReads.bcast_row_apply Cert.ReferenceIdeal.Facts₀.bcast_S1x128_S100000x128_0_1 B r q,
    Cert.ReferenceIdeal.ReadP.val_main_call2_v0_apply, Cert.ReferenceIdeal.ReadP.val_main_call2_cst_apply]
  rfl

/-- Entry (p, q) of one block of the pass. -/
theorem rectifyBlock_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  unfold k1_pay1
  show max (shapeCast S10000x128 x0 Facts₀.shapeCasts_S10000x128_S10000x128 (ix2 p q)
      + broadcastTo S10000x128 (shapeCast S1x128 x1 Facts₀.shapeCasts_S1x128_S1x128) Facts₀.broadcasts_S1x128_S10000x128 (ix2 p q))
      (Ideal.ofBits .f32 0x00000000#32) = _
  rw [shapeCast_self, broadcastTo_1b_ab_apply, shapeCast_self]

/-- The printed index maps over the ten grid points. -/
theorem rectify_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the aggregate's block at point t is row 10000 t + p of the array. -/
theorem rectify_rows (c : Dev nD) (t : Fin cfg1.N) (p : Fin 10000) (q : Fin 128) (hr : t.val * 10000 + p.val < 100000) :
    iblk1 V c 0 t (ix2 p q) = V c main_v46 (ix2 ⟨t.val * 10000 + p.val, hr⟩ q) := by
  obtain ⟨e0, e1, -, -, -, -⟩ := rectify_idx t
  show V c main_v46 (((cfg1.win 0).blk t).view.emb (ix2 p q)) = V c main_v46 (ix2 ⟨t.val * 10000 + p.val, hr⟩ q)
  refine congrArg (V c main_v46) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * q.val = q.val; omega

/-- The bias row's block at every point is the whole row. -/
theorem rectify_bias (c : Dev nD) (t : Fin cfg1.N) (q : Fin 128) :
    iblk1 V c 1 t (ix2 (0 : Fin 1) q) = V c main_v47 (ix2 (0 : Fin 1) q) := by
  obtain ⟨-, -, e2, e3, -, -⟩ := rectify_idx t
  show V c main_v47 (((cfg1.win 1).blk t).view.emb (ix2 (0 : Fin 1) q)) = V c main_v47 (ix2 (0 : Fin 1) q)
  refine congrArg (V c main_v47) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point t writes back is block t of the whole pass over the arrays as the pallas_call finds them. -/
theorem rectify_flushed (c : Dev nD) (t : Fin cfg1.N) :
    (dat1 (F := Ideal) V c).flushed 2 t
      = ((cfg1.win 2).blk t).view.read (Elt Ideal) (rectified (V c main_v46) (V c main_v47)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S1x128) origin2]
  obtain ⟨-, -, -, -, e4, e5⟩ := rectify_idx t
  funext j
  obtain ⟨p, q, rfl⟩ : ∃ (p : Fin 10000) (q : Fin 128), j = ix2 p q := ⟨j 0, j 1, eq_ix2 j⟩
  have hr : t.val * 10000 + p.val < 100000 := by
    have h1 : t.val < 10 := Nat.lt_of_lt_of_eq t.isLt N_1
    have h2 := p.isLt; omega
  have hout : ((cfg1.win 2).blk t).view.emb (ix2 p q) = ix2 ⟨t.val * 10000 + p.val, hr⟩ q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show k1_pay1 (F := Ideal) (iblk1 V c 0 t) (iblk1 V c 1 t) (ix2 p q)
      = rectified (V c main_v46) (V c main_v47) (((cfg1.win 2).blk t).view.emb (ix2 p q))
  rw [hout]
  refine (rectifyBlock_apply (iblk1 V c 0 t) (iblk1 V c 1 t) p q).trans
    (Eq.trans ?_ (rectified_apply (V c main_v46) (V c main_v47) ⟨t.val * 10000 + p.val, hr⟩ q).symm)
  rw [rectify_rows V c t p q hr, rectify_bias V c t q]

/-- An index of the output array is in point t's block iff each coordinate is in the block's range on its axis. -/
theorem rectify_mem (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v48).slice (win1_2.rect t)).set ↔ _
  rw [View.set_slice_whole, Rect.mem_set_unit]
  exact Iff.rfl

/-- Every index of the output array is in the block of the point its row falls to. -/
theorem rectify_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by rw [show cfg1.N = 10 from N_1]; omega
  obtain ⟨-, -, -, -, e4, e5⟩ := rectify_idx ⟨(i 0).val / 10000, hN⟩
  refine ⟨⟨(i 0).val / 10000, hN⟩, flush1_2 _, ?_⟩
  rw [rectify_mem]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    rw [e5]; omega

/-- After the ten points the output array is the whole pass over the two arrays the pallas_call found. -/
theorem rectify_final (c : Dev nD) :
    (dat1 (F := Ideal) V c).arrAt 2 cfg1.N = rectified (V c main_v46) (V c main_v47) :=
  (dat1 (F := Ideal) V c).arrAt_eq_of_cover 2 (rectified (V c main_v46) (V c main_v47))
    (fun t _ => rectify_flushed V c t) rectify_cover

end Cert.KernelIdeal.Layers

end
-- ==== Proof.ProjectClasses.lean ====
/-
  The second dense projection, h2 = layer1 · W2. Grid point t loads rows 10000 t … 10000 t + 9999 of the rectified
  features (all 128 columns) and the whole 128 × 64 weight matrix, multiplies them into a zero accumulator, and stores
  the product as the same rows of the 64-column output. As for the first projection: at the ideal values a block's entry
  (p, q) is the sum over k of features (p, k) · weight (k, q), the restriction to the block's rows of the host's matrix
  product of the whole arrays, and the ten blocks cover the rows.
-/
import proofs.«154892_j29961691857024_1_alg».proof.Proof.Gen.KernelIdeal.Frame
import proofs.«154892_j29961691857024_1_alg».proof.Proof.ReferenceRead
import proofs.«154892_j29961691857024_1_alg».proof.Proof.LibPlainMatmul
import proofs.«154892_j29961691857024_1_alg».proof.Proof.LibPlainDot
import proofs.«154892_j29961691857024_1_alg».proof.Proof.BlockOrigin
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

-- the contents of the TensorCore's buffers when a pallas_call is entered: any
variable (V : (c : Dev nD) → (b : Ref sig .tc) → Buf (Elt Ideal) ((c : Thread nD τ).loc b))

/-- The whole product: the reference's second `dot_general` of any two arrays of the right extents. -/
def classes (A : FVec Ideal Cert.ReferenceIdeal.S100000x128 .f32) (Wt : FVec Ideal Cert.ReferenceIdeal.S128x64 .f32) :
    FVec Ideal Cert.ReferenceIdeal.S100000x64 .f32 :=
  Host.dotGeneral (F := Ideal) Cert.ReferenceIdeal.dot_S100000x128_S128x64_S100000x64_1_0_0_1_n_n none A Wt

/-- Entry (r, q) of the whole product. -/
theorem classes_apply (A : FVec Ideal Cert.ReferenceIdeal.S100000x128 .f32) (Wt : FVec Ideal Cert.ReferenceIdeal.S128x64 .f32)
    (r : Fin 100000) (q : Fin 64) : classes A Wt (ix2 r q) = ∑ k : Fin 128, A (ix2 r k) * Wt (ix2 k q) :=
  PlainDot.plainDot_apply (M := 100000) (K := 128) (N := 64) none A Wt r q

/-- Entry (p, q) of one block's product. -/
theorem classesBlock_apply (x0 : Vec Ideal S10000x128 .f32) (x1 : Vec Ideal S128x64 .f32) (p : Fin 10000) (q : Fin 64) :
    k2_pay1 (F := Ideal) x0 x1 (ix2 p q) = ∑ k : Fin 128, x0 (ix2 p k) * x1 (ix2 k q) := by
  unfold k2_pay1
  rw [shapeCast_self]
  exact PlainMatmul.plainMatmul_apply (M := 10000) (K := 128) (N := 64) none
    (truncf .bf16 (x0 : FVec Ideal S10000x128 .f32) Facts₀.bitsLt_bf16_f32) (truncf .bf16 (x1 : FVec Ideal S128x64 .f32) Facts₀.bitsLt_bf16_f32) p q

/-- The printed index maps over the ten grid points. -/
theorem classes_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the features' block at point t is row 10000 t + p of the array. -/
theorem classes_rows (c : Dev nD) (t : Fin cfg2.N) (p : Fin 10000) (k : Fin 128) (hr : t.val * 10000 + p.val < 100000) :
    iblk2 V c 0 t (ix2 p k) = V c main_v48 (ix2 ⟨t.val * 10000 + p.val, hr⟩ k) := by
  obtain ⟨e0, e1, -, -, -, -⟩ := classes_idx t
  show V c main_v48 (((cfg2.win 0).blk t).view.emb (ix2 p k)) = V c main_v48 (ix2 ⟨t.val * 10000 + p.val, hr⟩ k)
  refine congrArg (V c main_v48) (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The weight's block at every point is the whole weight. -/
theorem classes_weights (c : Dev nD) (t : Fin cfg2.N) (k : Fin 128) (q : Fin 64) :
    iblk2 V c 1 t (ix2 k q) = V c main_arg4 (ix2 k q) := by
  obtain ⟨-, -, e2, e3, -, -⟩ := classes_idx t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

/-- What point t writes back is block t of the whole product of the arrays as the pallas_call finds them. -/
theorem classes_flushed (c : Dev nD) (t : Fin cfg2.N) :
    (dat2 (F := Ideal) V c).flushed 2 t
      = ((cfg2.win 2).blk t).view.read (Elt Ideal) (classes (V c main_v48) (V c main_arg4)) := by
  show (cfg2.win 2).cut (grid2.coords t) ((dat2 V c).after 2 t) = _
  rw [after2_2]
  unfold out2_2
  rw [View.canon_unit_zero origin2]
  simp only [View.ld_unit_zero (S := S10000x128) origin2, View.ld_unit_zero (S := S128x64) origin2]
  obtain ⟨-, -, -, -, e4, e5⟩ := classes_idx t
  funext j
  obtain ⟨p, q, rfl⟩ : ∃ (p : Fin 10000) (q : Fin 64), j = ix2 p q := ⟨j 0, j 1, eq_ix2 j⟩
  have hr : t.val * 10000 + p.val < 100000 := by
    have h1 : t.val < 10 := Nat.lt_of_lt_of_eq t.isLt N_2
    have h2 := p.isLt; omega
  have hout : ((cfg2.win 2).blk t).view.emb (ix2 p q) = ix2 ⟨t.val * 10000 + p.val, hr⟩ q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay1 (F := Ideal) (iblk2 V c 0 t) (iblk2 V c 1 t) (ix2 p q)
      = classes (V c main_v48) (V c main_arg4) (((cfg2.win 2).blk t).view.emb (ix2 p q))
  rw [hout]
  refine (classesBlock_apply (iblk2 V c 0 t) (iblk2 V c 1 t) p q).trans
    (Eq.trans ?_ (classes_apply (V c main_v48) (V c main_arg4) ⟨t.val * 10000 + p.val, hr⟩ q).symm)
  exact Finset.sum_congr rfl fun k _ => congrArg₂ (· * ·) (classes_rows V c t p k hr) (classes_weights V c t k q)

/-- An index of the output array is in point t's block iff each coordinate is in the block's range on its axis. -/
theorem classes_mem (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v49).slice (win2_2.rect t)).set ↔ _
  rw [View.set_slice_whole, Rect.mem_set_unit]
  exact Iff.rfl

/-- Every index of the output array is in the block of the point its row falls to. -/
theorem classes_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by rw [show cfg2.N = 10 from N_2]; omega
  obtain ⟨-, -, -, -, e4, e5⟩ := classes_idx ⟨(i 0).val / 10000, hN⟩
  refine ⟨⟨(i 0).val / 10000, hN⟩, flush2_2 _, ?_⟩
  rw [classes_mem]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    rw [e5]; omega

/-- After the ten points the output array is the whole product of the two arrays the pallas_call found. -/
theorem classes_final (c : Dev nD) :
    (dat2 (F := Ideal) V c).arrAt 2 cfg2.N = classes (V c main_v48) (V c main_arg4) :=
  (dat2 (F := Ideal) V c).arrAt_eq_of_cover 2 (classes (V c main_v48) (V c main_arg4))
    (fun t _ => classes_flushed V c t) classes_cover

end Cert.KernelIdeal.Layers

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«154892_j29961691857024_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«154892_j29961691857024_1_alg».proof.Proof.LibKeepdims
import proofs.«154892_j29961691857024_1_alg».proof.Proof.LibSoftmaxRows
import proofs.«154892_j29961691857024_1_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.LibLogSoftmaxPlain.lean ====
/-
  A logarithmic softmax along the rows of a rank-2 vector, read AT AN INDEX at the ideal values, for a kernel that spells
  it with no extra lower bound on the row's maximum: reduce the row by `maximumf` from the accumulator, view the result as
  a column and broadcast it back, subtract, exponentiate, reduce the row by `add`, view as a column, take the logarithm,
  broadcast, subtract.

  * `rowMax_same`: a row's fold of `max` joined once more with the value the fold started from is the fold;
  * `logSoftmaxPlain_apply`: the chain at (r, j) is `LogSoftmaxRows.logSoftmaxAt b b row j` with `b` the accumulator's
    value and `row` row r — that is `row j − M − log (∑ c, exp (row c − M))`, `M` the fold of `max` from `b` over the row.

  Nothing here needs the entries to be finite.
-/
import Idealize.ShloMosaic.PureOps.Ideal.Laws
import Idealize.ShloMosaic.Lib.Pipeline.Value
import Idealize.ShloMosaic.Lib.ValueIdx
import proofs.«154892_j29961691857024_1_alg».proof.Proof.LibKeepdims
import proofs.«154892_j29961691857024_1_alg».proof.Proof.LibSoftmaxRows
import proofs.«154892_j29961691857024_1_alg».proof.Proof.LibLogSoftmaxRows

noncomputable section

open scoped BigOperators

namespace Idealize.ShloMosaic.LogSoftmaxPlain

open Idealize.ShloMosaic Idealize.ShloMosaic.ValueIdx

/-- Joined with the value it started from, a fold of `max` is itself. -/
theorem rowMax_same {n : Nat} (b : EReal) (row : Fin n → EReal) :
    LogSoftmaxRows.rowMax b b row = (Finset.univ : Finset (Fin n)).fold max b row :=
  SoftmaxRows.max_fold_max_self _ b row

/-- The keepdims logarithmic-softmax chain of a kernel over the rows of `s`, with no extra bound on the maximum, at (r, j). -/
theorem logSoftmaxPlain_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (multiReduction .maximumf [1] ⟨1, ![n0]⟩ s accM hr hφ hM) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc)) hb) (ix2 r j)
      = LogSoftmaxRows.logSoftmaxAt (Ideal.ofBits .f32 accM) (Ideal.ofBits .f32 accM) (fun c => s (ix2 r c)) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = LogSoftmaxRows.rowMax (Ideal.ofBits .f32 accM) (Ideal.ofBits .f32 accM) (fun c => s (ix2 r c)) := fun c =>
    (Keepdims.bcast_col_apply _ hb r c).trans ((Keepdims.cast_col_apply _ hc r 0).trans
      ((SoftmaxRows.rowMax2_apply s accM hr hφ hM r).trans (rowMax_same _ _).symm))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - LogSoftmaxRows.rowMax (Ideal.ofBits .f32 accM) (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc)) hb (ix2 r j)
      = Ideal.log (∑ c : Fin n1, Ideal.exp (s (ix2 r c) - LogSoftmaxRows.rowMax (Ideal.ofBits .f32 accM) (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (multiReduction .maximumf [1] ⟨1, ![n0]⟩ s accM hr hφ hM) hc) hb) (ix2 r j)
      = s (ix2 r j) - LogSoftmaxRows.rowMax (Ideal.ofBits .f32 accM) (Ideal.ofBits .f32 accM) (fun c => s (ix2 r c)) :=
    congrArg (fun m => s (ix2 r j) - m) (hmax j)
  unfold LogSoftmaxRows.logSoftmaxAt
  exact congrArg₂ (fun a b : EReal => a - b) hsub hlog

end Idealize.ShloMosaic.LogSoftmaxPlain

end
-- ==== Proof.ClassScores.lean ====
/-
  The bias-and-log-softmax pass after the second aggregation. Grid point t loads rows 10000 t … 10000 t + 9999 of the
  aggregated class features (64 columns) and the bias laid as one row; z is the loaded block plus the bias row on every row;
  the block stored is z − m − log s with m the row maximum of z (kept as a column and broadcast back) and s the row sum of
  exp (z − m). Entry (p, j) of a block therefore depends on row p of z alone:
      z (p, j) − M − log (∑ c, exp (z (p, c) − M)),   M the fold of max from −∞ over row p of z,
  and the reference's `log_softmax (agg + bias)` is the same expression of row 10000 t + p of ITS z (its extra
  `maximum` of the row maximum with −∞ changes nothing: the fold already starts from −∞). No finiteness is needed:
  the two sides are one function of the row on the extended reals. The ten blocks cover the rows.
-/
import proofs.«154892_j29961691857024_1_alg».proof.Proof.Gen.KernelIdeal.Frame
import proofs.«154892_j29961691857024_1_alg».proof.Proof.ReferenceRead
import proofs.«154892_j29961691857024_1_alg».proof.Proof.LibHostReads
import proofs.«154892_j29961691857024_1_alg».proof.Proof.LibLogSoftmaxRows
import proofs.«154892_j29961691857024_1_alg».proof.Proof.LibLogSoftmaxPlain
import proofs.«154892_j29961691857024_1_alg».proof.Proof.BlockOrigin
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

-- the contents of the TensorCore's buffers when a pallas_call is entered: any
variable (V : (c : Dev nD) → (b : Ref sig .tc) → Buf (Elt Ideal) ((c : Thread nD τ).loc b))

open Idealize.ShloMosaic.LogSoftmaxRows (logSoftmaxAt)

/-- The bias row added to every row: the reference's broadcast and sum of any two arrays of the right extents. -/
def logits (A : FVec Ideal Cert.ReferenceIdeal.S100000x64 .f32) (B : FVec Ideal Cert.ReferenceIdeal.S1x64 .f32) : FVec Ideal Cert.ReferenceIdeal.S100000x64 .f32 :=
  addf A (broadcastInDim Cert.ReferenceIdeal.S100000x64 ![0, 1] Cert.ReferenceIdeal.Facts₀.bcast_S1x64_S100000x64_0_1 B)

/-- The row maximum of `Z`, joined once more with −∞, laid as a column and broadcast along the rows: the reference's. -/
def rowMaxBack (Z : FVec Ideal Cert.ReferenceIdeal.S100000x64 .f32) : FVec Ideal Cert.ReferenceIdeal.S100000x64 .f32 :=
  broadcastInDim Cert.ReferenceIdeal.S100000x64 ![0, 1] Cert.ReferenceIdeal.Facts₀.bcast_S100000x1_S100000x64_0_1
    (broadcastInDim Cert.ReferenceIdeal.S100000x1 ![0] Cert.ReferenceIdeal.Facts₀.bcast_S100000_S100000x1_0
      (maximumf (Cert.ReferenceIdeal.ReadP.val_main_call5_v1 (F := Ideal))
        (Host.reduce (FloatOps.maximumf (F := Ideal) (φ := .f32)) Z (Cert.ReferenceIdeal.ReadP.val_main_call5_cst (F := Ideal))
          Cert.ReferenceIdeal.Facts₀.reducesTo_S100000x64_S100000_d1 Cert.ReferenceIdeal.Facts₀.h_S_)))

/-- The reference's `log_softmax` along the rows of any array of the right extents. -/
def logSoftmaxed (Z : FVec Ideal Cert.ReferenceIdeal.S100000x64 .f32) : FVec Ideal Cert.ReferenceIdeal.S100000x64 .f32 :=
  subf (subf Z (rowMaxBack Z))
    (broadcastInDim Cert.ReferenceIdeal.S100000x64 ![0, 1] Cert.ReferenceIdeal.Facts₀.bcast_S100000x1_S100000x64_0_1
      (Host.log (F := Ideal) (broadcastInDim Cert.ReferenceIdeal.S100000x1 ![0] Cert.ReferenceIdeal.Facts₀.bcast_S100000_S100000x1_0
        (Host.reduceAdd (F := Ideal) (Host.exp (F := Ideal) (subf Z (rowMaxBack Z))) (Cert.ReferenceIdeal.ReadP.val_main_call5_cst_1 (F := Ideal))
          Cert.ReferenceIdeal.Facts₀.reducesTo_S100000x64_S100000_d1 Cert.ReferenceIdeal.Facts₀.h_S_))))

/-- The whole pass. -/
def scored (A : FVec Ideal Cert.ReferenceIdeal.S100000x64 .f32) (B : FVec Ideal Cert.ReferenceIdeal.S1x64 .f32) : FVec Ideal Cert.ReferenceIdeal.S100000x64 .f32 :=
  logSoftmaxed (logits A B)

/-- Entry (r, c) of the logits. -/
theorem logits_apply (A : FVec Ideal Cert.ReferenceIdeal.S100000x64 .f32) (B : FVec Ideal Cert.ReferenceIdeal.S1x64 .f32) (r : Fin 100000) (c : Fin 64) :
    logits A B (ix2 r c) = A (ix2 r c) + B (ix2 (0 : Fin 1) c) := by
  show A (ix2 r c) + broadcastInDim Cert.ReferenceIdeal.S100000x64 ![0, 1] Cert.ReferenceIdeal.Facts₀.bcast_S1x64_S100000x64_0_1 B (ix2 r c) = _
  rw [HostReads.bcast_row_apply Cert.ReferenceIdeal.Facts₀.bcast_S1x64_S100000x64_0_1 B r c]

/-- Entry (r, j) of the whole pass: the logarithmic softmax of row r of the logits, from −∞. -/
theorem scored_apply (A : FVec Ideal Cert.ReferenceIdeal.S100000x64 .f32) (B : FVec Ideal Cert.ReferenceIdeal.S1x64 .f32) (r : Fin 100000) (j : Fin 64) :
    scored A B (ix2 r j) = logSoftmaxAt (Ideal.ofBits .f32 0xFF800000#32) (Ideal.ofBits .f32 0xFF800000#32)
      (fun c => A (ix2 r c) + B (ix2 (0 : Fin 1) c)) j := by
  have hz : Cert.ReferenceIdeal.ReadP.val_main_call5_cst_1 (F := Ideal) (Shape.Idx.first Cert.ReferenceIdeal.Facts₀.h_S_) = 0 := by
    rw [Cert.ReferenceIdeal.ReadP.val_main_call5_cst_1_apply]; exact Ideal.ofBits_zero_f32
  have hlo : Cert.ReferenceIdeal.ReadP.val_main_call5_v1 (F := Ideal) (ix1 r) = Ideal.ofBits .f32 0xFF800000#32 := by
    rw [Cert.ReferenceIdeal.ReadP.val_main_call5_v1_apply, Cert.ReferenceIdeal.ReadP.val_main_call5_cst_0_apply]; rfl
  have hinit : Cert.ReferenceIdeal.ReadP.val_main_call5_cst (F := Ideal) (Shape.Idx.first Cert.ReferenceIdeal.Facts₀.h_S_) = Ideal.ofBits .f32 0xFF800000#32 := by
    rw [Cert.ReferenceIdeal.ReadP.val_main_call5_cst_apply]; rfl
  unfold scored logSoftmaxed rowMaxBack
  refine (LogSoftmaxRows.hostLogSoftmaxRows_apply (a := 100000) (b := 64) (logits A B)
    (Cert.ReferenceIdeal.ReadP.val_main_call5_v1 (F := Ideal)) (Cert.ReferenceIdeal.ReadP.val_main_call5_cst (F := Ideal)) (Cert.ReferenceIdeal.ReadP.val_main_call5_cst_1 (F := Ideal))
    Cert.ReferenceIdeal.Facts₀.reducesTo_S100000x64_S100000_d1 (by decide) Cert.ReferenceIdeal.Facts₀.h_S_
    Cert.ReferenceIdeal.Facts₀.bcast_S100000_S100000x1_0 Cert.ReferenceIdeal.Facts₀.bcast_S100000x1_S100000x64_0_1 hz r j).trans ?_
  rw [hlo, hinit]
  exact congrArg (fun row => logSoftmaxAt (Ideal.ofBits .f32 0xFF800000#32) (Ideal.ofBits .f32 0xFF800000#32) row j)
    (funext fun c => logits_apply A B r c)

/-- Entry (p, j) of one block of the pass: the logarithmic softmax of row p of the block's logits, from −∞. -/
theorem scoreBlock_apply (x0 : Vec Ideal S10000x64 .f32) (x1 : Vec Ideal S1x64 .f32) (p : Fin 10000) (j : Fin 64) :
    k3_pay1 (F := Ideal) x0 x1 (ix2 p j) = logSoftmaxAt (Ideal.ofBits .f32 0xFF800000#32) (Ideal.ofBits .f32 0xFF800000#32)
      (fun c => x0 (ix2 p c) + x1 (ix2 (0 : Fin 1) c)) j := by
  unfold k3_pay1
  refine (LogSoftmaxPlain.logSoftmaxPlain_apply (n0 := 10000) (n1 := 64)
    (addf (shapeCast S10000x64 (x0 : FVec Ideal S10000x64 .f32) Facts₀.shapeCasts_S10000x64_S10000x64)
      (broadcastTo S10000x64 (shapeCast S1x64 (x1 : FVec Ideal S1x64 .f32) Facts₀.shapeCasts_S1x64_S1x64) Facts₀.broadcasts_S1x64_S10000x64))
    0xFF800000#32 0x00000000#32 Facts₀.reduces_S10000x64_S10000 Facts₀.shapeCasts_S10000_S10000x1 Facts₀.broadcasts_S10000x1_S10000x64
    (.inl rfl) rfl rfl p j).trans ?_
  refine congrArg (fun row => logSoftmaxAt (Ideal.ofBits .f32 0xFF800000#32) (Ideal.ofBits .f32 0xFF800000#32) row j) (funext fun c => ?_)
  show shapeCast S10000x64 x0 Facts₀.shapeCasts_S10000x64_S10000x64 (ix2 p c)
      + broadcastTo S10000x64 (shapeCast S1x64 x1 Facts₀.shapeCasts_S1x64_S1x64) Facts₀.broadcasts_S1x64_S10000x64 (ix2 p c) = _
  rw [shapeCast_self, broadcastTo_1b_ab_apply, shapeCast_self]

/-- The printed index maps over the ten grid points. -/
theorem score_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the aggregate's block at point t is row 10000 t + p of the array. -/
theorem score_rows (c : Dev nD) (t : Fin cfg3.N) (p : Fin 10000) (q : Fin 64) (hr : t.val * 10000 + p.val < 100000) :
    iblk3 V c 0 t (ix2 p q) = V c main_v62 (ix2 ⟨t.val * 10000 + p.val, hr⟩ q) := by
  obtain ⟨e0, e1, -, -, -, -⟩ := score_idx t
  show V c main_v62 (((cfg3.win 0).blk t).view.emb (ix2 p q)) = V c main_v62 (ix2 ⟨t.val * 10000 + p.val, hr⟩ q)
  refine congrArg (V c main_v62) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * q.val = q.val; omega

/-- The bias row's block at every point is the whole row. -/
theorem score_bias (c : Dev nD) (t : Fin cfg3.N) (q : Fin 64) :
    iblk3 V c 1 t (ix2 (0 : Fin 1) q) = V c main_v63 (ix2 (0 : Fin 1) q) := by
  obtain ⟨-, -, e2, e3, -, -⟩ := score_idx t
  show V c main_v63 (((cfg3.win 1).blk t).view.emb (ix2 (0 : Fin 1) q)) = V c main_v63 (ix2 (0 : Fin 1) q)
  refine congrArg (V c main_v63) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- What point t writes back is block t of the whole pass over the arrays as the pallas_call finds them. -/
theorem score_flushed (c : Dev nD) (t : Fin cfg3.N) :
    (dat3 (F := Ideal) V c).flushed 2 t
      = ((cfg3.win 2).blk t).view.read (Elt Ideal) (scored (V c main_v62) (V c main_v63)) := by
  show (cfg3.win 2).cut (grid3.coords t) ((dat3 V c).after 2 t) = _
  rw [after3_2]
  unfold out3_2
  rw [View.canon_unit_zero origin2]
  simp only [View.ld_unit_zero (S := S10000x64) origin2, View.ld_unit_zero (S := S1x64) origin2]
  obtain ⟨-, -, -, -, e4, e5⟩ := score_idx t
  funext j
  obtain ⟨p, q, rfl⟩ : ∃ (p : Fin 10000) (q : Fin 64), j = ix2 p q := ⟨j 0, j 1, eq_ix2 j⟩
  have hr : t.val * 10000 + p.val < 100000 := by
    have h1 : t.val < 10 := Nat.lt_of_lt_of_eq t.isLt N_3
    have h2 := p.isLt; omega
  have hout : ((cfg3.win 2).blk t).view.emb (ix2 p q) = ix2 ⟨t.val * 10000 + p.val, hr⟩ q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (F := Ideal) (iblk3 V c 0 t) (iblk3 V c 1 t) (ix2 p q)
      = scored (V c main_v62) (V c main_v63) (((cfg3.win 2).blk t).view.emb (ix2 p q))
  rw [hout]
  refine (scoreBlock_apply (iblk3 V c 0 t) (iblk3 V c 1 t) p q).trans
    (Eq.trans ?_ (scored_apply (V c main_v62) (V c main_v63) ⟨t.val * 10000 + p.val, hr⟩ q).symm)
  refine congrArg (fun row => logSoftmaxAt (Ideal.ofBits .f32 0xFF800000#32) (Ideal.ofBits .f32 0xFF800000#32) row q) (funext fun c' => ?_)
  rw [score_rows V c t p c' hr, score_bias V c t c']

/-- An index of the output array is in point t's block iff each coordinate is in the block's range on its axis. -/
theorem score_mem (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v64).slice (win3_2.rect t)).set ↔ _
  rw [View.set_slice_whole, Rect.mem_set_unit]
  exact Iff.rfl

/-- Every index of the output array is in the block of the point its row falls to. -/
theorem score_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := by rw [show cfg3.N = 10 from N_3]; omega
  obtain ⟨-, -, -, -, e4, e5⟩ := score_idx ⟨(i 0).val / 10000, hN⟩
  refine ⟨⟨(i 0).val / 10000, hN⟩, flush3_2 _, ?_⟩
  rw [score_mem]
  intro a
  match a with
  | ⟨0, _⟩ =>
    show win3_2.index ⟨(i 0).val / 10000, hN⟩ (0 : Fin 2) * 10000 ≤ (i 0).val
      ∧ (i 0).val < win3_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hN⟩ (1 : Fin 2) * 64 ≤ (i 1).val
      ∧ (i 1).val < win3_2.index ⟨(i 0).val / 10000, hN⟩ (1 : Fin 2) * 64 + 64
    rw [e5]; omega

/-- After the ten points the output array is the whole pass over the two arrays the pallas_call found. -/
theorem score_final (c : Dev nD) :
    (dat3 (F := Ideal) V c).arrAt 2 cfg3.N = scored (V c main_v62) (V c main_v63) :=
  (dat3 (F := Ideal) V c).arrAt_eq_of_cover 2 (scored (V c main_v62) (V c main_v63))
    (fun t _ => score_flushed V c t) score_cover

end Cert.KernelIdeal.Layers

end
-- ==== Proof.KernelStages.lean ====
/-
  From the first pallas_call to the result. Between the pallas_calls the host gathers the projected rows at the sources,
  scales them by the edge weight and scatter-adds them at the destinations — the reference's operations again, on whatever
  the pallas_call before left — and reshapes a bias vector to one row, which is the reference's broadcast of it into one
  row. Each pallas_call leaves in its output array one function of its two input arrays (the four modules before this
  one), and that function is the reference's own stage: its `dot_general`, its `relu (· + bias)`, its second
  `dot_general`, its `log_softmax (· + bias)`. So the buffer contents at every boundary are the reference's stage
  functions of the six arguments, and the kernel's result buffer ends holding the reference's last stage.
-/
import proofs.«154892_j29961691857024_1_alg».proof.Proof.KernelEntry
import proofs.«154892_j29961691857024_1_alg».proof.Proof.LibRowReshape
import proofs.«154892_j29961691857024_1_alg».proof.Proof.ProjectHidden
import proofs.«154892_j29961691857024_1_alg».proof.Proof.Rectify
import proofs.«154892_j29961691857024_1_alg».proof.Proof.ProjectClasses
import proofs.«154892_j29961691857024_1_alg».proof.Proof.ClassScores

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The host stretches, from any contents with the buffers they read at the reference's values -/

/-- The first aggregation. -/
theorem aggregate1_from (Wa : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal))
    (h33 : Wa (Proc.devRef .tc main_v33) = Cert.ReferenceIdeal.ReadP.val_main_v7 (F := Ideal) x0 x2)
    (h3 : Wa (Proc.devRef .tc main_v3) = Cert.ReferenceIdeal.ReadP.val_main_v3 (F := Ideal) x1)
    (h6 : Wa (Proc.devRef .tc main_v6) = Cert.ReferenceIdeal.ReadP.val_main_v6 (F := Ideal) x1)
    (h32 : Wa (Proc.devRef .tc main_v32) = Cert.ReferenceIdeal.ReadP.val_main_v33 (F := Ideal) x1) :
    StableHlo.after hostOps1 Wa (Proc.devRef .tc main_v46) = Cert.ReferenceIdeal.ReadP.val_main_v46 (F := Ideal) x0 x1 x2 := by
  dsimp only [hostOps1]
  after_results_simp
  rw [h33, h3, h6, h32]
  rfl

/-- The first bias as one row: the reshape is the reference's broadcast into one row. -/
theorem biasRow1_from (Wa : Valuation τ sig (Elt Ideal)) (x3 : (⟨Cert.ReferenceIdeal.S128, .f32⟩ : BufTy).Contents (Elt Ideal))
    (ha : Wa (Proc.devRef .tc main_arg3) = x3) :
    StableHlo.after hostOps1 Wa (Proc.devRef .tc main_v47) = Cert.ReferenceIdeal.ReadP.val_main_v47 (F := Ideal) x3 := by
  dsimp only [hostOps1]
  after_results_simp
  rw [ha]
  exact RowReshape.reshape_row_eq_bcast (b := 128) x3 Facts₀.shapeCasts_S128_S1x128 Cert.ReferenceIdeal.Facts₀.bcast_S128_S1x128_1

theorem stretch1_keeps_src (Wa : Valuation τ sig (Elt Ideal)) :
    StableHlo.after hostOps1 Wa (Proc.devRef .tc main_v3) = Wa (Proc.devRef .tc main_v3) := by
  skip_writes [hostOps1]
theorem stretch1_keeps_dst (Wa : Valuation τ sig (Elt Ideal)) :
    StableHlo.after hostOps1 Wa (Proc.devRef .tc main_v6) = Wa (Proc.devRef .tc main_v6) := by
  skip_writes [hostOps1]
theorem stretch1_keeps_norm (Wa : Valuation τ sig (Elt Ideal)) :
    StableHlo.after hostOps1 Wa (Proc.devRef .tc main_v32) = Wa (Proc.devRef .tc main_v32) := by
  skip_writes [hostOps1]
theorem stretch1_keeps_arg4 (Wa : Valuation τ sig (Elt Ideal)) :
    StableHlo.after hostOps1 Wa (Proc.devRef .tc main_arg4) = Wa (Proc.devRef .tc main_arg4) := by
  skip_writes [hostOps1]
theorem stretch1_keeps_arg5 (Wa : Valuation τ sig (Elt Ideal)) :
    StableHlo.after hostOps1 Wa (Proc.devRef .tc main_arg5) = Wa (Proc.devRef .tc main_arg5) := by
  skip_writes [hostOps1]

/-- The edge weight the reference computes a second time is the first one: the same operations of the edge list. -/
theorem norm_again (x1 : (⟨Cert.ReferenceIdeal.S2x1600000, .i32⟩ : BufTy).Contents (Elt Ideal)) : Cert.ReferenceIdeal.ReadP.val_main_v77 (F := Ideal) x1 = Cert.ReferenceIdeal.ReadP.val_main_v33 (F := Ideal) x1 := rfl

/-- The second aggregation. -/
theorem aggregate2_from (Wa : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal))
    (h49 : Wa (Proc.devRef .tc main_v49) = Cert.ReferenceIdeal.ReadP.val_main_v51 (F := Ideal) x0 x1 x2 x3 x4)
    (h3 : Wa (Proc.devRef .tc main_v3) = Cert.ReferenceIdeal.ReadP.val_main_v3 (F := Ideal) x1)
    (h6 : Wa (Proc.devRef .tc main_v6) = Cert.ReferenceIdeal.ReadP.val_main_v6 (F := Ideal) x1)
    (h32 : Wa (Proc.devRef .tc main_v32) = Cert.ReferenceIdeal.ReadP.val_main_v77 (F := Ideal) x1) :
    StableHlo.after hostOps3 Wa (Proc.devRef .tc main_v62) = Cert.ReferenceIdeal.ReadP.val_main_v90 (F := Ideal) x0 x1 x2 x3 x4 := by
  dsimp only [hostOps3]
  after_results_simp
  rw [h49, h3, h6, h32]
  rfl

/-- The second bias as one row. -/
theorem biasRow2_from (Wa : Valuation τ sig (Elt Ideal)) (x5 : (⟨Cert.ReferenceIdeal.S64, .f32⟩ : BufTy).Contents (Elt Ideal))
    (ha : Wa (Proc.devRef .tc main_arg5) = x5) :
    StableHlo.after hostOps3 Wa (Proc.devRef .tc main_v63) = Cert.ReferenceIdeal.ReadP.val_main_v91 (F := Ideal) x5 := by
  dsimp only [hostOps3]
  after_results_simp
  rw [ha]
  exact RowReshape.reshape_row_eq_bcast (b := 64) x5 Facts₀.shapeCasts_S64_S1x64 Cert.ReferenceIdeal.Facts₀.bcast_S64_S1x64_1

/-! ## The boundaries of the run, one after the other -/

-- after the first projection
theorem at6_hidden (c : Dev nD) : W6 m ρ c (Proc.devRef .tc main_v33) = Cert.ReferenceIdeal.ReadP.val_main_v7 (F := Ideal) (m ((c.tc : Thread nD τ).loc main_arg0)) (m ((c.tc : Thread nD τ).loc main_arg2)) := by
  refine (W6_arr m ρ c 2).trans ((hidden_final (V5 m ρ) c).trans ?_)
  show hidden (W5 m ρ c (Proc.devRef .tc main_arg0)) (W5 m ρ c (Proc.devRef .tc main_arg2)) = _
  rw [entry_arg0, entry_arg2]; rfl
theorem at6_src (c : Dev nD) : W6 m ρ c (Proc.devRef .tc main_v3) = Cert.ReferenceIdeal.ReadP.val_main_v3 (F := Ideal) (m ((c.tc : Thread nD τ).loc main_arg1)) :=
  (W6_of_ne m ρ c main_v3 (by decide)).trans (entry_src m ρ c)
theorem at6_dst (c : Dev nD) : W6 m ρ c (Proc.devRef .tc main_v6) = Cert.ReferenceIdeal.ReadP.val_main_v6 (F := Ideal) (m ((c.tc : Thread nD τ).loc main_arg1)) :=
  (W6_of_ne m ρ c main_v6 (by decide)).trans (entry_dst m ρ c)
theorem at6_norm (c : Dev nD) : W6 m ρ c (Proc.devRef .tc main_v32) = Cert.ReferenceIdeal.ReadP.val_main_v33 (F := Ideal) (m ((c.tc : Thread nD τ).loc main_arg1)) :=
  (W6_of_ne m ρ c main_v32 (by decide)).trans (entry_norm m ρ c)
theorem at6_arg3 (c : Dev nD) : W6 m ρ c (Proc.devRef .tc main_arg3) = (m ((c.tc : Thread nD τ).loc main_arg3)) :=
  (W6_of_ne m ρ c main_arg3 (by decide)).trans (entry_arg3 m ρ c)
theorem at6_arg4 (c : Dev nD) : W6 m ρ c (Proc.devRef .tc main_arg4) = (m ((c.tc : Thread nD τ).loc main_arg4)) :=
  (W6_of_ne m ρ c main_arg4 (by decide)).trans (entry_arg4 m ρ c)
theorem at6_arg5 (c : Dev nD) : W6 m ρ c (Proc.devRef .tc main_arg5) = (m ((c.tc : Thread nD τ).loc main_arg5)) :=
  (W6_of_ne m ρ c main_arg5 (by decide)).trans (entry_arg5 m ρ c)

-- at the rectifier pass's entry
theorem at7_agg (c : Dev nD) : W7 m ρ c (Proc.devRef .tc main_v46) = Cert.ReferenceIdeal.ReadP.val_main_v46 (F := Ideal) (m ((c.tc : Thread nD τ).loc main_arg0)) (m ((c.tc : Thread nD τ).loc main_arg1)) (m ((c.tc : Thread nD τ).loc main_arg2)) :=
  aggregate1_from (W6 m ρ c) _ _ _ (at6_hidden m ρ c) (at6_src m ρ c) (at6_dst m ρ c) (at6_norm m ρ c)
theorem at7_bias (c : Dev nD) : W7 m ρ c (Proc.devRef .tc main_v47) = Cert.ReferenceIdeal.ReadP.val_main_v47 (F := Ideal) (m ((c.tc : Thread nD τ).loc main_arg3)) :=
  biasRow1_from (W6 m ρ c) _ (at6_arg3 m ρ c)
theorem at7_src (c : Dev nD) : W7 m ρ c (Proc.devRef .tc main_v3) = Cert.ReferenceIdeal.ReadP.val_main_v3 (F := Ideal) (m ((c.tc : Thread nD τ).loc main_arg1)) :=
  (stretch1_keeps_src (W6 m ρ c)).trans (at6_src m ρ c)
theorem at7_dst (c : Dev nD) : W7 m ρ c (Proc.devRef .tc main_v6) = Cert.ReferenceIdeal.ReadP.val_main_v6 (F := Ideal) (m ((c.tc : Thread nD τ).loc main_arg1)) :=
  (stretch1_keeps_dst (W6 m ρ c)).trans (at6_dst m ρ c)
theorem at7_norm (c : Dev nD) : W7 m ρ c (Proc.devRef .tc main_v32) = Cert.ReferenceIdeal.ReadP.val_main_v33 (F := Ideal) (m ((c.tc : Thread nD τ).loc main_arg1)) :=
  (stretch1_keeps_norm (W6 m ρ c)).trans (at6_norm m ρ c)
theorem at7_arg4 (c : Dev nD) : W7 m ρ c (Proc.devRef .tc main_arg4) = (m ((c.tc : Thread nD τ).loc main_arg4)) :=
  (stretch1_keeps_arg4 (W6 m ρ c)).trans (at6_arg4 m ρ c)
theorem at7_arg5 (c : Dev nD) : W7 m ρ c (Proc.devRef .tc main_arg5) = (m ((c.tc : Thread nD τ).loc main_arg5)) :=
  (stretch1_keeps_arg5 (W6 m ρ c)).trans (at6_arg5 m ρ c)

-- after the rectifier pass
theorem at8_layer (c : Dev nD) : W8 m ρ c (Proc.devRef .tc main_v48)
    = Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg3)) := by
  refine (W8_arr m ρ c 2).trans ((rectify_final (V7 m ρ) c).trans ?_)
  show rectified (W7 m ρ c (Proc.devRef .tc main_v46)) (W7 m ρ c (Proc.devRef .tc main_v47)) = _
  rw [at7_agg, at7_bias]; rfl
theorem at8_src (c : Dev nD) : W8 m ρ c (Proc.devRef .tc main_v3) = Cert.ReferenceIdeal.ReadP.val_main_v3 (F := Ideal) (m ((c.tc : Thread nD τ).loc main_arg1)) :=
  (W8_of_ne m ρ c main_v3 (by decide)).trans (at7_src m ρ c)
theorem at8_dst (c : Dev nD) : W8 m ρ c (Proc.devRef .tc main_v6) = Cert.ReferenceIdeal.ReadP.val_main_v6 (F := Ideal) (m ((c.tc : Thread nD τ).loc main_arg1)) :=
  (W8_of_ne m ρ c main_v6 (by decide)).trans (at7_dst m ρ c)
theorem at8_norm (c : Dev nD) : W8 m ρ c (Proc.devRef .tc main_v32) = Cert.ReferenceIdeal.ReadP.val_main_v33 (F := Ideal) (m ((c.tc : Thread nD τ).loc main_arg1)) :=
  (W8_of_ne m ρ c main_v32 (by decide)).trans (at7_norm m ρ c)
theorem at8_arg4 (c : Dev nD) : W8 m ρ c (Proc.devRef .tc main_arg4) = (m ((c.tc : Thread nD τ).loc main_arg4)) :=
  (W8_of_ne m ρ c main_arg4 (by decide)).trans (at7_arg4 m ρ c)
theorem at8_arg5 (c : Dev nD) : W8 m ρ c (Proc.devRef .tc main_arg5) = (m ((c.tc : Thread nD τ).loc main_arg5)) :=
  (W8_of_ne m ρ c main_arg5 (by decide)).trans (at7_arg5 m ρ c)

-- after the second projection
theorem at9_classes (c : Dev nD) : W9 m ρ c (Proc.devRef .tc main_v49)
    = Cert.ReferenceIdeal.ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W9_arr m ρ c 2).trans ((classes_final (V8 m ρ) c).trans ?_)
  show classes (W8 m ρ c (Proc.devRef .tc main_v48)) (W8 m ρ c (Proc.devRef .tc main_arg4)) = _
  rw [at8_layer, at8_arg4]; rfl
theorem at9_src (c : Dev nD) : W9 m ρ c (Proc.devRef .tc main_v3) = Cert.ReferenceIdeal.ReadP.val_main_v3 (F := Ideal) (m ((c.tc : Thread nD τ).loc main_arg1)) :=
  (W9_of_ne m ρ c main_v3 (by decide)).trans (at8_src m ρ c)
theorem at9_dst (c : Dev nD) : W9 m ρ c (Proc.devRef .tc main_v6) = Cert.ReferenceIdeal.ReadP.val_main_v6 (F := Ideal) (m ((c.tc : Thread nD τ).loc main_arg1)) :=
  (W9_of_ne m ρ c main_v6 (by decide)).trans (at8_dst m ρ c)
theorem at9_norm (c : Dev nD) : W9 m ρ c (Proc.devRef .tc main_v32) = Cert.ReferenceIdeal.ReadP.val_main_v77 (F := Ideal) (m ((c.tc : Thread nD τ).loc main_arg1)) :=
  ((W9_of_ne m ρ c main_v32 (by decide)).trans (at8_norm m ρ c)).trans (norm_again _).symm
theorem at9_arg5 (c : Dev nD) : W9 m ρ c (Proc.devRef .tc main_arg5) = (m ((c.tc : Thread nD τ).loc main_arg5)) :=
  (W9_of_ne m ρ c main_arg5 (by decide)).trans (at8_arg5 m ρ c)

-- at the log-softmax pass's entry
theorem at10_agg (c : Dev nD) : W10 m ρ c (Proc.devRef .tc main_v62)
    = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  aggregate2_from (W9 m ρ c) _ _ _ _ _ (at9_classes m ρ c) (at9_src m ρ c) (at9_dst m ρ c) (at9_norm m ρ c)
theorem at10_bias (c : Dev nD) : W10 m ρ c (Proc.devRef .tc main_v63) = Cert.ReferenceIdeal.ReadP.val_main_v91 (F := Ideal) (m ((c.tc : Thread nD τ).loc main_arg5)) :=
  biasRow2_from (W9 m ρ c) _ (at9_arg5 m ρ c)

/-- THE RESULT: at the last boundary the kernel's result buffer holds the reference's last stage of the six arguments. -/
theorem result_eq (c : Dev nD) : W11 m ρ c (Proc.devRef .tc main_v64)
    = Cert.ReferenceIdeal.ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W11_arr m ρ c 2).trans ((score_final (V10 m ρ) c).trans ?_)
  show scored (W10 m ρ c (Proc.devRef .tc main_v62)) (W10 m ρ c (Proc.devRef .tc main_v63)) = _
  rw [at10_agg, at10_bias]; rfl

end Cert.KernelIdeal.Layers

end
-- ==== Proof.ReferencePieces.lean ====
/-
  The reference's 145 operations cut into nine consecutive pieces, each ending where the values the next one consumes are
  complete: the two index vectors (operations 1–7); the first matrix product, the degrees and their masks (8–21); the edge
  weight (22–48); the first aggregation (49–64); bias, rectifier and second matrix product (65–71); the degrees and their
  masks again (72–84); the edge weight again (85–111); the second aggregation (112–127); bias and log-softmax (128–145).
  The pieces in order are the whole list.
-/
import proofs.«154892_j29961691857024_1_alg».proof.Proof.ReferenceRun

noncomputable section

namespace Cert.ReferenceIdeal.Result

open Cert.ReferenceIdeal Cert.ReferenceIdeal.Gen Idealize.ShloMosaic Idealize.ShloMosaic.TcCoe Idealize.SL.Sem Idealize.ShloMosaic.StableHlo

variable {F : FTy → Type} [FloatOps F]

/-- Operations 1 … 7 of the reference: the two index vectors. -/
abbrev P0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8 … 21 of the reference: the first matrix product, the degrees and their masks. -/
abbrev P1 : List (HloOp τ sig (Elt F)) :=
  [ binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32) ]

/-- Operations 22 … 48 of the reference: the edge weight. -/
abbrev P2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v11) (TRef.of (T := ⟨S100000, .f32⟩) main_call0_v1) (TRef.of (T := ⟨S100000, .f32⟩) main_v16) select,
    unary main_v16 main_v17 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v13) (TRef.of (T := ⟨S100000, .f32⟩) main_v17) (TRef.of (T := ⟨S100000, .f32⟩) main_call1_v1) (TRef.of (T := ⟨S100000, .f32⟩) main_v18) select,
    nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v3 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v21 (broadcastInDim S1700000 ![] bcast_S_S1700000 : (⟨S_, .i32⟩ : BufTy).Contents (Elt F) → (⟨S1700000, .i32⟩ : BufTy).Contents (Elt F)),
    binary main_v3 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v3 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v28 (broadcastInDim S1700000 ![] bcast_S_S1700000 : (⟨S_, .i32⟩ : BufTy).Contents (Elt F) → (⟨S1700000, .i32⟩ : BufTy).Contents (Elt F)),
    binary main_v6 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v18 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)) ]

/-- Operations 49 … 64 of the reference: the first aggregation. -/
abbrev P3 : List (HloOp τ sig (Elt F)) :=
  [ nullary main_c_8 (constantI S_ 32 0#32),
    unary main_c_8 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v7 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v33 main_v41 (broadcastInDim S1700000x1 ![0] bcast_S1700000_S1700000x1_0 : (⟨S1700000, .f32⟩ : BufTy).Contents (Elt F) → (⟨S1700000x1, .f32⟩ : BufTy).Contents (Elt F)),
    unary main_v41 main_v42 (broadcastInDim S1700000x128 ![0, 1] bcast_S1700000x1_S1700000x128_0_1 : (⟨S1700000x1, .f32⟩ : BufTy).Contents (Elt F) → (⟨S1700000x128, .f32⟩ : BufTy).Contents (Elt F)),
    binary main_v40 main_v42 main_v43 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v44 (broadcastInDim S100000x128 ![] bcast_S_S100000x128 : (⟨S_, .f32⟩ : BufTy).Contents (Elt F) → (⟨S100000x128, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 65 … 71 of the reference: bias, rectifier and second matrix product. -/
abbrev P4 : List (HloOp τ sig (Elt F)) :=
  [ unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v49) (TRef.of (T := ⟨S100000x128, .f32⟩) main_call2_v0) (TRef.of (T := ⟨S100000x128, .f32⟩) main_v50) maximumf,
    binary main_v50 main_arg4 main_v51 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 72 … 84 of the reference: the degrees and their masks again. -/
abbrev P5 : List (HloOp τ sig (Elt F)) :=
  [ nullary main_cst_11 (constant S_ .f32 0x3F800000#32),
    unary main_cst_11 main_v52 (broadcastInDim S1700000 ![] bcast_S_S1700000 : (⟨S_, .f32⟩ : BufTy).Contents (Elt F) → (⟨S1700000, .f32⟩ : BufTy).Contents (Elt F)),
    nullary main_cst_12 (constant S_ .f32 0x00000000#32),
    unary main_cst_12 main_v53 (broadcastInDim S100000 ![] bcast_S_S100000 : (⟨S_, .f32⟩ : BufTy).Contents (Elt F) → (⟨S100000, .f32⟩ : BufTy).Contents (Elt F)),
    unary main_v6 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_13 (constant S_ .f32 0x00000000#32),
    unary main_cst_13 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    nullary main_cst_14 (constant S_ .f32 0x00000000#32),
    unary main_cst_14 main_v58 (broadcastInDim S100000 ![] bcast_S_S100000 : (⟨S_, .f32⟩ : BufTy).Contents (Elt F) → (⟨S100000, .f32⟩ : BufTy).Contents (Elt F)),
    binary main_v55 main_v58 main_v59 (cmpf .ogt : (⟨S100000, .f32⟩ : BufTy).Contents (Elt F) → (⟨S100000, .f32⟩ : BufTy).Contents (Elt F) → (⟨S100000, .i1⟩ : BufTy).Contents (Elt F)),
    nullary main_cst_15 (constant S_ .f32 0x3F800000#32) ]

/-- Operations 85 … 111 of the reference: the edge weight again. -/
abbrev P6 : List (HloOp τ sig (Elt F)) :=
  [ TRef.unary (TRef.of (T := ⟨S_, .f32⟩) main_cst_15) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v59) (TRef.of (T := ⟨S100000, .f32⟩) main_v55) (TRef.of (T := ⟨S100000, .f32⟩) main_call3_v1) (TRef.of (T := ⟨S100000, .f32⟩) main_v60) select,
    unary main_v60 main_v61 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v57) (TRef.of (T := ⟨S100000, .f32⟩) main_v61) (TRef.of (T := ⟨S100000, .f32⟩) main_call4_v1) (TRef.of (T := ⟨S100000, .f32⟩) main_v62) select,
    nullary main_c_17 (constantI S_ 32 0#32),
    unary main_c_17 main_v63 (broadcastInDim S1700000 ![] bcast_S_S1700000 : (⟨S_, .i32⟩ : BufTy).Contents (Elt F) → (⟨S1700000, .i32⟩ : BufTy).Contents (Elt F)),
    binary main_v3 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v65 (broadcastInDim S1700000 ![] bcast_S_S1700000 : (⟨S_, .i32⟩ : BufTy).Contents (Elt F) → (⟨S1700000, .i32⟩ : BufTy).Contents (Elt F)),
    binary main_v3 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v3 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_19 (constantI S_ 32 0#32),
    unary main_c_19 main_v70 (broadcastInDim S1700000 ![] bcast_S_S1700000 : (⟨S_, .i32⟩ : BufTy).Contents (Elt F) → (⟨S1700000, .i32⟩ : BufTy).Contents (Elt F)),
    binary main_v6 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v72 (broadcastInDim S1700000 ![] bcast_S_S1700000 : (⟨S_, .i32⟩ : BufTy).Contents (Elt F) → (⟨S1700000, .i32⟩ : BufTy).Contents (Elt F)),
    binary main_v6 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v6 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

/-- Operations 112 … 127 of the reference: the second aggregation. -/
abbrev P7 : List (HloOp τ sig (Elt F)) :=
  [ nullary main_c_21 (constantI S_ 32 0#32),
    unary main_c_21 main_v78 (broadcastInDim S1700000 ![] bcast_S_S1700000 : (⟨S_, .i32⟩ : BufTy).Contents (Elt F) → (⟨S1700000, .i32⟩ : BufTy).Contents (Elt F)),
    binary main_v3 main_v78 main_v79 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v80 (broadcastInDim S1700000 ![] bcast_S_S1700000 : (⟨S_, .i32⟩ : BufTy).Contents (Elt F) → (⟨S1700000, .i32⟩ : BufTy).Contents (Elt F)),
    binary main_v3 main_v80 main_v81 (addi : (⟨S1700000, .i32⟩ : BufTy).Contents (Elt F) → (⟨S1700000, .i32⟩ : BufTy).Contents (Elt F) → (⟨S1700000, .i32⟩ : BufTy).Contents (Elt F)),
    ternary main_v79 main_v81 main_v3 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v82 main_v83 (broadcastInDim S1700000x1 ![0] bcast_S1700000_S1700000x1_0 : (⟨S1700000, .i32⟩ : BufTy).Contents (Elt F) → (⟨S1700000x1, .i32⟩ : BufTy).Contents (Elt F)),
    binary main_v51 main_v83 main_v84 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v77 main_v85 (broadcastInDim S1700000x1 ![0] bcast_S1700000_S1700000x1_0 : (⟨S1700000, .f32⟩ : BufTy).Contents (Elt F) → (⟨S1700000x1, .f32⟩ : BufTy).Contents (Elt F)),
    unary main_v85 main_v86 (broadcastInDim S1700000x64 ![0, 1] bcast_S1700000x1_S1700000x64_0_1 : (⟨S1700000x1, .f32⟩ : BufTy).Contents (Elt F) → (⟨S1700000x64, .f32⟩ : BufTy).Contents (Elt F)),
    binary main_v84 main_v86 main_v87 (mulf : (⟨S1700000x64, .f32⟩ : BufTy).Contents (Elt F) → (⟨S1700000x64, .f32⟩ : BufTy).Contents (Elt F) → (⟨S1700000x64, .f32⟩ : BufTy).Contents (Elt F)),
    nullary main_cst_23 (constant S_ .f32 0x00000000#32),
    unary main_cst_23 main_v88 (broadcastInDim S100000x64 ![] bcast_S_S100000x64 : (⟨S_, .f32⟩ : BufTy).Contents (Elt F) → (⟨S100000x64, .f32⟩ : BufTy).Contents (Elt F)),
    unary main_v6 main_v89 (broadcastInDim S1700000x1 ![0] bcast_S1700000_S1700000x1_0 : (⟨S1700000, .i32⟩ : BufTy).Contents (Elt F) → (⟨S1700000x1, .i32⟩ : BufTy).Contents (Elt F)),
    ternary main_v88 main_v89 main_v87 main_v90 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 128 … 145 of the reference: bias and log-softmax. -/
abbrev P8 : List (HloOp τ sig (Elt F)) :=
  [ unary main_arg5 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v90 main_v92 main_v93 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0xFF800000#32),
    TRef.binary (TRef.of (T := ⟨S100000x64, .f32⟩) main_v93) (TRef.of (T := ⟨S_, .f32⟩) main_call5_cst) (TRef.of (T := ⟨S100000, .f32⟩) main_call5_v0) (fun x v => Host.reduce FloatOps.maximumf x v reducesTo_S100000x64_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x64, .f32⟩) main_call5_v4) (broadcastInDim S100000x64 ![0, 1] bcast_S100000x1_S100000x64_0_1),
    TRef.binary (TRef.of (T := ⟨S100000x64, .f32⟩) main_v93) (TRef.of (T := ⟨S100000x64, .f32⟩) main_call5_v4) (TRef.of (T := ⟨S100000x64, .f32⟩) main_call5_v5) subf,
    TRef.unary (TRef.of (T := ⟨S100000x64, .f32⟩) main_call5_v5) (TRef.of (T := ⟨S100000x64, .f32⟩) main_call5_v6) Host.exp,
    TRef.nullary (TRef.of (T := ⟨S_, .f32⟩) main_call5_cst_1) (constant S_ .f32 0x00000000#32),
    TRef.binary (TRef.of (T := ⟨S100000x64, .f32⟩) main_call5_v6) (TRef.of (T := ⟨S_, .f32⟩) main_call5_cst_1) (TRef.of (T := ⟨S100000, .f32⟩) main_call5_v7) (fun x v => Host.reduceAdd x v reducesTo_S100000x64_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x64, .f32⟩) main_call5_v10) (broadcastInDim S100000x64 ![0, 1] bcast_S100000x1_S100000x64_0_1),
    TRef.binary (TRef.of (T := ⟨S100000x64, .f32⟩) main_call5_v5) (TRef.of (T := ⟨S100000x64, .f32⟩) main_call5_v10) (TRef.of (T := ⟨S100000x64, .f32⟩) main_v94) subf ]

set_option maxRecDepth 8192 in
/-- The nine pieces, in order, are the reference's list of operations. -/
theorem ops_eq : (Cert.ReferenceIdeal.ValueP.ops : List (HloOp τ sig (Elt F)))
    = P0 ++ (P1 ++ (P2 ++ (P3 ++ (P4 ++ (P5 ++ (P6 ++ (P7 ++ P8))))))) := rfl

end Cert.ReferenceIdeal.Result

end
-- ==== Proof.ReferenceResult.lean ====
/-
  The reference's result, read. The reference is one straight line of 145 host operations, and after a run every buffer
  holds the fold of the operations over the launch contents. The result buffer of that fold is the last of the reference's
  stages — the operations named one at a time as functions of the six arguments. The line is read in nine pieces
  (ReferencePieces). The first, the two index vectors, each a concatenation, is read as it stands. Each later piece is read
  from ANY contents that have the buffers it consumes at the stages' values: there the typed-buffer casts of the outlined
  functions (`where`, `relu`, `log_softmax`) cancel in pairs, the few left at a piece's ends rewrite away, and what is left
  is the stages' own text. A buffer that a piece does not write it keeps; no operation writes an argument.
-/
import proofs.«154892_j29961691857024_1_alg».proof.Proof.ReferencePieces
import proofs.«154892_j29961691857024_1_alg».proof.Proof.ReferenceRead
import proofs.«154892_j29961691857024_1_alg».proof.Proof.LibCallBuffers

set_option maxRecDepth 16384

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.ValueP (ops)

/-- Reads a buffer after a literal list of operations: one pass over the list, then the operations inside a
    concatenation's operands, which the pass leaves. -/
local macro "read_results" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-! ## The two index vectors -/

theorem piece0_src (W : Valuation τ sig (Elt Ideal)) :
    after P0 W (Proc.devRef .tc main_v3) = ReadP.val_main_v3 (F := Ideal) (W (Proc.devRef .tc main_arg1)) := by
  dsimp only [P0]; read_results; rfl
theorem piece0_dst (W : Valuation τ sig (Elt Ideal)) :
    after P0 W (Proc.devRef .tc main_v6) = ReadP.val_main_v6 (F := Ideal) (W (Proc.devRef .tc main_arg1)) := by
  dsimp only [P0]; read_results; rfl
theorem piece0_keeps_arg0 (Wa : Valuation τ sig (Elt Ideal)) :
    after P0 Wa (Proc.devRef .tc main_arg0) = Wa (Proc.devRef .tc main_arg0) := by
  dsimp only [P0]
  after_results_simp
theorem piece0_keeps_arg2 (Wa : Valuation τ sig (Elt Ideal)) :
    after P0 Wa (Proc.devRef .tc main_arg2) = Wa (Proc.devRef .tc main_arg2) := by
  dsimp only [P0]
  after_results_simp
theorem piece0_keeps_arg3 (Wa : Valuation τ sig (Elt Ideal)) :
    after P0 Wa (Proc.devRef .tc main_arg3) = Wa (Proc.devRef .tc main_arg3) := by
  dsimp only [P0]
  after_results_simp
theorem piece0_keeps_arg4 (Wa : Valuation τ sig (Elt Ideal)) :
    after P0 Wa (Proc.devRef .tc main_arg4) = Wa (Proc.devRef .tc main_arg4) := by
  dsimp only [P0]
  after_results_simp
theorem piece0_keeps_arg5 (Wa : Valuation τ sig (Elt Ideal)) :
    after P0 Wa (Proc.devRef .tc main_arg5) = Wa (Proc.devRef .tc main_arg5) := by
  dsimp only [P0]
  after_results_simp

/-! ## The first matrix product, the degrees and their masks -/

theorem piece1_hidden (Wa : Valuation τ sig (Elt Ideal)) (x0 : (⟨S100000x128, .f32⟩ : BufTy).Contents (Elt Ideal)) (x2 : (⟨S128x128, .f32⟩ : BufTy).Contents (Elt Ideal))
    (h0 : Wa (Proc.devRef .tc main_arg0) = x0)
    (h2 : Wa (Proc.devRef .tc main_arg2) = x2) :
    after P1 Wa (Proc.devRef .tc main_v7) = ReadP.val_main_v7 (F := Ideal) x0 x2 := by
  dsimp only [P1]
  after_results_simp
  rw [h0, h2]
  rfl

theorem piece1_deg (Wa : Valuation τ sig (Elt Ideal)) (x1 : (⟨S2x1600000, .i32⟩ : BufTy).Contents (Elt Ideal))
    (h6 : Wa (Proc.devRef .tc main_v6) = ReadP.val_main_v6 (F := Ideal) x1) :
    after P1 Wa (Proc.devRef .tc main_v11) = ReadP.val_main_v11 (F := Ideal) x1 := by
  dsimp only [P1]
  after_results_simp
  rw [h6]
  rfl

theorem piece1_pos (Wa : Valuation τ sig (Elt Ideal)) (x1 : (⟨S2x1600000, .i32⟩ : BufTy).Contents (Elt Ideal))
    (h6 : Wa (Proc.devRef .tc main_v6) = ReadP.val_main_v6 (F := Ideal) x1) :
    after P1 Wa (Proc.devRef .tc main_v13) = ReadP.val_main_v13 (F := Ideal) x1 := by
  dsimp only [P1]
  after_results_simp
  rw [h6]
  rfl

theorem piece1_pos' (Wa : Valuation τ sig (Elt Ideal)) (x1 : (⟨S2x1600000, .i32⟩ : BufTy).Contents (Elt Ideal))
    (h6 : Wa (Proc.devRef .tc main_v6) = ReadP.val_main_v6 (F := Ideal) x1) :
    after P1 Wa (Proc.devRef .tc main_v15) = ReadP.val_main_v15 (F := Ideal) x1 := by
  dsimp only [P1]
  after_results_simp
  rw [h6]
  rfl

theorem piece1_one (Wa : Valuation τ sig (Elt Ideal))
    :
    after P1 Wa (Proc.devRef .tc main_cst_3) = ReadP.val_main_cst_3 (F := Ideal) := by
  dsimp only [P1]
  after_results_simp
  rfl

theorem piece1_keeps_v3 (Wa : Valuation τ sig (Elt Ideal)) :
    after P1 Wa (Proc.devRef .tc main_v3) = Wa (Proc.devRef .tc main_v3) := by
  dsimp only [P1]
  after_results_simp
theorem piece1_keeps_v6 (Wa : Valuation τ sig (Elt Ideal)) :
    after P1 Wa (Proc.devRef .tc main_v6) = Wa (Proc.devRef .tc main_v6) := by
  dsimp only [P1]
  after_results_simp
theorem piece1_keeps_arg3 (Wa : Valuation τ sig (Elt Ideal)) :
    after P1 Wa (Proc.devRef .tc main_arg3) = Wa (Proc.devRef .tc main_arg3) := by
  dsimp only [P1]
  after_results_simp
theorem piece1_keeps_arg4 (Wa : Valuation τ sig (Elt Ideal)) :
    after P1 Wa (Proc.devRef .tc main_arg4) = Wa (Proc.devRef .tc main_arg4) := by
  dsimp only [P1]
  after_results_simp
theorem piece1_keeps_arg5 (Wa : Valuation τ sig (Elt Ideal)) :
    after P1 Wa (Proc.devRef .tc main_arg5) = Wa (Proc.devRef .tc main_arg5) := by
  dsimp only [P1]
  after_results_simp

/-! ## The edge weight -/

theorem piece2_norm (Wa : Valuation τ sig (Elt Ideal)) (x1 : (⟨S2x1600000, .i32⟩ : BufTy).Contents (Elt Ideal))
    (h3 : Wa (Proc.devRef .tc main_v3) = ReadP.val_main_v3 (F := Ideal) x1)
    (h6 : Wa (Proc.devRef .tc main_v6) = ReadP.val_main_v6 (F := Ideal) x1)
    (h11 : Wa (Proc.devRef .tc main_v11) = ReadP.val_main_v11 (F := Ideal) x1)
    (h13 : Wa (Proc.devRef .tc main_v13) = ReadP.val_main_v13 (F := Ideal) x1)
    (h15 : Wa (Proc.devRef .tc main_v15) = ReadP.val_main_v15 (F := Ideal) x1)
    (hc : Wa (Proc.devRef .tc main_cst_3) = ReadP.val_main_cst_3 (F := Ideal)) :
    after P2 Wa (Proc.devRef .tc main_v33) = ReadP.val_main_v33 (F := Ideal) x1 := by
  dsimp only [P2]
  after_results_simp
  simp only [TRef.ofBuf_toBuf]
  simp only [TRef.ofBuf, TRef.toBuf, cast_eq]
  rw [h3, h6, h11, h13, h15, hc]
  rfl

theorem piece2_keeps_v3 (Wa : Valuation τ sig (Elt Ideal)) :
    after P2 Wa (Proc.devRef .tc main_v3) = Wa (Proc.devRef .tc main_v3) := by
  dsimp only [P2]
  after_results_simp
theorem piece2_keeps_v6 (Wa : Valuation τ sig (Elt Ideal)) :
    after P2 Wa (Proc.devRef .tc main_v6) = Wa (Proc.devRef .tc main_v6) := by
  dsimp only [P2]
  after_results_simp
theorem piece2_keeps_v7 (Wa : Valuation τ sig (Elt Ideal)) :
    after P2 Wa (Proc.devRef .tc main_v7) = Wa (Proc.devRef .tc main_v7) := by
  dsimp only [P2]
  after_results_simp
theorem piece2_keeps_arg3 (Wa : Valuation τ sig (Elt Ideal)) :
    after P2 Wa (Proc.devRef .tc main_arg3) = Wa (Proc.devRef .tc main_arg3) := by
  dsimp only [P2]
  after_results_simp
theorem piece2_keeps_arg4 (Wa : Valuation τ sig (Elt Ideal)) :
    after P2 Wa (Proc.devRef .tc main_arg4) = Wa (Proc.devRef .tc main_arg4) := by
  dsimp only [P2]
  after_results_simp
theorem piece2_keeps_arg5 (Wa : Valuation τ sig (Elt Ideal)) :
    after P2 Wa (Proc.devRef .tc main_arg5) = Wa (Proc.devRef .tc main_arg5) := by
  dsimp only [P2]
  after_results_simp

/-! ## The first aggregation -/

theorem piece3_agg (Wa : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (h7 : Wa (Proc.devRef .tc main_v7) = ReadP.val_main_v7 (F := Ideal) x0 x2)
    (h3 : Wa (Proc.devRef .tc main_v3) = ReadP.val_main_v3 (F := Ideal) x1)
    (h6 : Wa (Proc.devRef .tc main_v6) = ReadP.val_main_v6 (F := Ideal) x1)
    (h33 : Wa (Proc.devRef .tc main_v33) = ReadP.val_main_v33 (F := Ideal) x1) :
    after P3 Wa (Proc.devRef .tc main_v46) = ReadP.val_main_v46 (F := Ideal) x0 x1 x2 := by
  dsimp only [P3]
  after_results_simp
  rw [h7, h3, h6, h33]
  rfl

theorem piece3_keeps_v3 (Wa : Valuation τ sig (Elt Ideal)) :
    after P3 Wa (Proc.devRef .tc main_v3) = Wa (Proc.devRef .tc main_v3) := by
  dsimp only [P3]
  after_results_simp
theorem piece3_keeps_v6 (Wa : Valuation τ sig (Elt Ideal)) :
    after P3 Wa (Proc.devRef .tc main_v6) = Wa (Proc.devRef .tc main_v6) := by
  dsimp only [P3]
  after_results_simp
theorem piece3_keeps_arg3 (Wa : Valuation τ sig (Elt Ideal)) :
    after P3 Wa (Proc.devRef .tc main_arg3) = Wa (Proc.devRef .tc main_arg3) := by
  dsimp only [P3]
  after_results_simp
theorem piece3_keeps_arg4 (Wa : Valuation τ sig (Elt Ideal)) :
    after P3 Wa (Proc.devRef .tc main_arg4) = Wa (Proc.devRef .tc main_arg4) := by
  dsimp only [P3]
  after_results_simp
theorem piece3_keeps_arg5 (Wa : Valuation τ sig (Elt Ideal)) :
    after P3 Wa (Proc.devRef .tc main_arg5) = Wa (Proc.devRef .tc main_arg5) := by
  dsimp only [P3]
  after_results_simp

/-! ## Bias, rectifier, second matrix product -/

theorem piece4_classes (Wa : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (h46 : Wa (Proc.devRef .tc main_v46) = ReadP.val_main_v46 (F := Ideal) x0 x1 x2)
    (ha3 : Wa (Proc.devRef .tc main_arg3) = x3)
    (ha4 : Wa (Proc.devRef .tc main_arg4) = x4) :
    after P4 Wa (Proc.devRef .tc main_v51) = ReadP.val_main_v51 (F := Ideal) x0 x1 x2 x3 x4 := by
  dsimp only [P4]
  after_results_simp
  simp only [TRef.ofBuf_toBuf]
  simp only [TRef.ofBuf, TRef.toBuf, cast_eq]
  rw [h46, ha3, ha4]
  rfl

theorem piece4_keeps_v3 (Wa : Valuation τ sig (Elt Ideal)) :
    after P4 Wa (Proc.devRef .tc main_v3) = Wa (Proc.devRef .tc main_v3) := by
  dsimp only [P4]
  after_results_simp
theorem piece4_keeps_v6 (Wa : Valuation τ sig (Elt Ideal)) :
    after P4 Wa (Proc.devRef .tc main_v6) = Wa (Proc.devRef .tc main_v6) := by
  dsimp only [P4]
  after_results_simp
theorem piece4_keeps_arg5 (Wa : Valuation τ sig (Elt Ideal)) :
    after P4 Wa (Proc.devRef .tc main_arg5) = Wa (Proc.devRef .tc main_arg5) := by
  dsimp only [P4]
  after_results_simp

/-! ## The degrees and their masks again -/

theorem piece5_deg (Wa : Valuation τ sig (Elt Ideal)) (x1 : (⟨S2x1600000, .i32⟩ : BufTy).Contents (Elt Ideal))
    (h6 : Wa (Proc.devRef .tc main_v6) = ReadP.val_main_v6 (F := Ideal) x1) :
    after P5 Wa (Proc.devRef .tc main_v55) = ReadP.val_main_v55 (F := Ideal) x1 := by
  dsimp only [P5]
  after_results_simp
  rw [h6]
  rfl

theorem piece5_pos (Wa : Valuation τ sig (Elt Ideal)) (x1 : (⟨S2x1600000, .i32⟩ : BufTy).Contents (Elt Ideal))
    (h6 : Wa (Proc.devRef .tc main_v6) = ReadP.val_main_v6 (F := Ideal) x1) :
    after P5 Wa (Proc.devRef .tc main_v57) = ReadP.val_main_v57 (F := Ideal) x1 := by
  dsimp only [P5]
  after_results_simp
  rw [h6]
  rfl

theorem piece5_pos' (Wa : Valuation τ sig (Elt Ideal)) (x1 : (⟨S2x1600000, .i32⟩ : BufTy).Contents (Elt Ideal))
    (h6 : Wa (Proc.devRef .tc main_v6) = ReadP.val_main_v6 (F := Ideal) x1) :
    after P5 Wa (Proc.devRef .tc main_v59) = ReadP.val_main_v59 (F := Ideal) x1 := by
  dsimp only [P5]
  after_results_simp
  rw [h6]
  rfl

theorem piece5_one (Wa : Valuation τ sig (Elt Ideal))
    :
    after P5 Wa (Proc.devRef .tc main_cst_15) = ReadP.val_main_cst_15 (F := Ideal) := by
  dsimp only [P5]
  after_results_simp
  rfl

theorem piece5_keeps_v3 (Wa : Valuation τ sig (Elt Ideal)) :
    after P5 Wa (Proc.devRef .tc main_v3) = Wa (Proc.devRef .tc main_v3) := by
  dsimp only [P5]
  after_results_simp
theorem piece5_keeps_v6 (Wa : Valuation τ sig (Elt Ideal)) :
    after P5 Wa (Proc.devRef .tc main_v6) = Wa (Proc.devRef .tc main_v6) := by
  dsimp only [P5]
  after_results_simp
theorem piece5_keeps_v51 (Wa : Valuation τ sig (Elt Ideal)) :
    after P5 Wa (Proc.devRef .tc main_v51) = Wa (Proc.devRef .tc main_v51) := by
  dsimp only [P5]
  after_results_simp
theorem piece5_keeps_arg5 (Wa : Valuation τ sig (Elt Ideal)) :
    after P5 Wa (Proc.devRef .tc main_arg5) = Wa (Proc.devRef .tc main_arg5) := by
  dsimp only [P5]
  after_results_simp

/-! ## The edge weight again -/

theorem piece6_norm (Wa : Valuation τ sig (Elt Ideal)) (x1 : (⟨S2x1600000, .i32⟩ : BufTy).Contents (Elt Ideal))
    (h3 : Wa (Proc.devRef .tc main_v3) = ReadP.val_main_v3 (F := Ideal) x1)
    (h6 : Wa (Proc.devRef .tc main_v6) = ReadP.val_main_v6 (F := Ideal) x1)
    (h55 : Wa (Proc.devRef .tc main_v55) = ReadP.val_main_v55 (F := Ideal) x1)
    (h57 : Wa (Proc.devRef .tc main_v57) = ReadP.val_main_v57 (F := Ideal) x1)
    (h59 : Wa (Proc.devRef .tc main_v59) = ReadP.val_main_v59 (F := Ideal) x1)
    (hc : Wa (Proc.devRef .tc main_cst_15) = ReadP.val_main_cst_15 (F := Ideal)) :
    after P6 Wa (Proc.devRef .tc main_v77) = ReadP.val_main_v77 (F := Ideal) x1 := by
  dsimp only [P6]
  after_results_simp
  simp only [TRef.ofBuf_toBuf]
  simp only [TRef.ofBuf, TRef.toBuf, cast_eq]
  rw [h3, h6, h55, h57, h59, hc]
  rfl

theorem piece6_keeps_v3 (Wa : Valuation τ sig (Elt Ideal)) :
    after P6 Wa (Proc.devRef .tc main_v3) = Wa (Proc.devRef .tc main_v3) := by
  dsimp only [P6]
  after_results_simp
theorem piece6_keeps_v6 (Wa : Valuation τ sig (Elt Ideal)) :
    after P6 Wa (Proc.devRef .tc main_v6) = Wa (Proc.devRef .tc main_v6) := by
  dsimp only [P6]
  after_results_simp
theorem piece6_keeps_v51 (Wa : Valuation τ sig (Elt Ideal)) :
    after P6 Wa (Proc.devRef .tc main_v51) = Wa (Proc.devRef .tc main_v51) := by
  dsimp only [P6]
  after_results_simp
theorem piece6_keeps_arg5 (Wa : Valuation τ sig (Elt Ideal)) :
    after P6 Wa (Proc.devRef .tc main_arg5) = Wa (Proc.devRef .tc main_arg5) := by
  dsimp only [P6]
  after_results_simp

/-! ## The second aggregation -/

theorem piece7_agg (Wa : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (h51 : Wa (Proc.devRef .tc main_v51) = ReadP.val_main_v51 (F := Ideal) x0 x1 x2 x3 x4)
    (h3 : Wa (Proc.devRef .tc main_v3) = ReadP.val_main_v3 (F := Ideal) x1)
    (h6 : Wa (Proc.devRef .tc main_v6) = ReadP.val_main_v6 (F := Ideal) x1)
    (h77 : Wa (Proc.devRef .tc main_v77) = ReadP.val_main_v77 (F := Ideal) x1) :
    after P7 Wa (Proc.devRef .tc main_v90) = ReadP.val_main_v90 (F := Ideal) x0 x1 x2 x3 x4 := by
  dsimp only [P7]
  after_results_simp
  rw [h51, h3, h6, h77]
  rfl

theorem piece7_keeps_arg5 (Wa : Valuation τ sig (Elt Ideal)) :
    after P7 Wa (Proc.devRef .tc main_arg5) = Wa (Proc.devRef .tc main_arg5) := by
  dsimp only [P7]
  after_results_simp

/-! ## Bias and log-softmax -/

theorem piece8_scores (Wa : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h90 : Wa (Proc.devRef .tc main_v90) = ReadP.val_main_v90 (F := Ideal) x0 x1 x2 x3 x4)
    (ha5 : Wa (Proc.devRef .tc main_arg5) = x5) :
    after P8 Wa (Proc.devRef .tc main_v94) = ReadP.val_main_v94 (F := Ideal) x0 x1 x2 x3 x4 x5 := by
  dsimp only [P8]
  after_results_simp
  simp only [TRef.ofBuf_toBuf]
  simp only [TRef.ofBuf, TRef.toBuf, cast_eq]
  rw [h90, ha5]
  rfl

/-! ## The whole line: the contents at the cuts -/

variable (m : (ℓ : Loc nD τ sig) → Buf (Elt Ideal) ℓ)

abbrev U0 (c : Dev nD) : Valuation τ sig (Elt Ideal) := launchContents m c
abbrev U1 (c : Dev nD) : Valuation τ sig (Elt Ideal) := after P0 (U0 m c)
abbrev U2 (c : Dev nD) : Valuation τ sig (Elt Ideal) := after P1 (U1 m c)
abbrev U3 (c : Dev nD) : Valuation τ sig (Elt Ideal) := after P2 (U2 m c)
abbrev U4 (c : Dev nD) : Valuation τ sig (Elt Ideal) := after P3 (U3 m c)
abbrev U5 (c : Dev nD) : Valuation τ sig (Elt Ideal) := after P4 (U4 m c)
abbrev U6 (c : Dev nD) : Valuation τ sig (Elt Ideal) := after P5 (U5 m c)
abbrev U7 (c : Dev nD) : Valuation τ sig (Elt Ideal) := after P6 (U6 m c)
abbrev U8 (c : Dev nD) : Valuation τ sig (Elt Ideal) := after P7 (U7 m c)

theorem whole_eq (c : Dev nD) : after (ops (F := Ideal)) (launchContents m c) = after P8 (U8 m c) := by
  rw [ops_eq]; simp only [after_append]

-- after the index vectors
theorem u1_src (c : Dev nD) : U1 m c (Proc.devRef .tc main_v3) = ReadP.val_main_v3 (F := Ideal) (m ((c.tc : Thread nD τ).loc main_arg1)) := piece0_src (U0 m c)
theorem u1_dst (c : Dev nD) : U1 m c (Proc.devRef .tc main_v6) = ReadP.val_main_v6 (F := Ideal) (m ((c.tc : Thread nD τ).loc main_arg1)) := piece0_dst (U0 m c)
theorem u1_arg0 (c : Dev nD) : U1 m c (Proc.devRef .tc main_arg0) = (m ((c.tc : Thread nD τ).loc main_arg0)) := piece0_keeps_arg0 (U0 m c)
theorem u1_arg2 (c : Dev nD) : U1 m c (Proc.devRef .tc main_arg2) = (m ((c.tc : Thread nD τ).loc main_arg2)) := piece0_keeps_arg2 (U0 m c)
theorem u1_arg3 (c : Dev nD) : U1 m c (Proc.devRef .tc main_arg3) = (m ((c.tc : Thread nD τ).loc main_arg3)) := piece0_keeps_arg3 (U0 m c)
theorem u1_arg4 (c : Dev nD) : U1 m c (Proc.devRef .tc main_arg4) = (m ((c.tc : Thread nD τ).loc main_arg4)) := piece0_keeps_arg4 (U0 m c)
theorem u1_arg5 (c : Dev nD) : U1 m c (Proc.devRef .tc main_arg5) = (m ((c.tc : Thread nD τ).loc main_arg5)) := piece0_keeps_arg5 (U0 m c)
-- after the first product, the degrees and their masks
theorem u2_hidden (c : Dev nD) : U2 m c (Proc.devRef .tc main_v7) = ReadP.val_main_v7 (F := Ideal) (m ((c.tc : Thread nD τ).loc main_arg0)) (m ((c.tc : Thread nD τ).loc main_arg2)) := piece1_hidden (U1 m c) _ _ (u1_arg0 m c) (u1_arg2 m c)
theorem u2_deg (c : Dev nD) : U2 m c (Proc.devRef .tc main_v11) = ReadP.val_main_v11 (F := Ideal) (m ((c.tc : Thread nD τ).loc main_arg1)) := piece1_deg (U1 m c) _ (u1_dst m c)
theorem u2_pos (c : Dev nD) : U2 m c (Proc.devRef .tc main_v13) = ReadP.val_main_v13 (F := Ideal) (m ((c.tc : Thread nD τ).loc main_arg1)) := piece1_pos (U1 m c) _ (u1_dst m c)
theorem u2_pos' (c : Dev nD) : U2 m c (Proc.devRef .tc main_v15) = ReadP.val_main_v15 (F := Ideal) (m ((c.tc : Thread nD τ).loc main_arg1)) := piece1_pos' (U1 m c) _ (u1_dst m c)
theorem u2_one (c : Dev nD) : U2 m c (Proc.devRef .tc main_cst_3) = ReadP.val_main_cst_3 (F := Ideal) := piece1_one (U1 m c)
theorem u2_src (c : Dev nD) : U2 m c (Proc.devRef .tc main_v3) = ReadP.val_main_v3 (F := Ideal) (m ((c.tc : Thread nD τ).loc main_arg1)) := (piece1_keeps_v3 (U1 m c)).trans (u1_src m c)
theorem u2_dst (c : Dev nD) : U2 m c (Proc.devRef .tc main_v6) = ReadP.val_main_v6 (F := Ideal) (m ((c.tc : Thread nD τ).loc main_arg1)) := (piece1_keeps_v6 (U1 m c)).trans (u1_dst m c)
theorem u2_arg3 (c : Dev nD) : U2 m c (Proc.devRef .tc main_arg3) = (m ((c.tc : Thread nD τ).loc main_arg3)) := (piece1_keeps_arg3 (U1 m c)).trans (u1_arg3 m c)
theorem u2_arg4 (c : Dev nD) : U2 m c (Proc.devRef .tc main_arg4) = (m ((c.tc : Thread nD τ).loc main_arg4)) := (piece1_keeps_arg4 (U1 m c)).trans (u1_arg4 m c)
theorem u2_arg5 (c : Dev nD) : U2 m c (Proc.devRef .tc main_arg5) = (m ((c.tc : Thread nD τ).loc main_arg5)) := (piece1_keeps_arg5 (U1 m c)).trans (u1_arg5 m c)
-- after the edge weight
theorem u3_norm (c : Dev nD) : U3 m c (Proc.devRef .tc main_v33) = ReadP.val_main_v33 (F := Ideal) (m ((c.tc : Thread nD τ).loc main_arg1)) := piece2_norm (U2 m c) _ (u2_src m c) (u2_dst m c) (u2_deg m c) (u2_pos m c) (u2_pos' m c) (u2_one m c)
theorem u3_hidden (c : Dev nD) : U3 m c (Proc.devRef .tc main_v7) = ReadP.val_main_v7 (F := Ideal) (m ((c.tc : Thread nD τ).loc main_arg0)) (m ((c.tc : Thread nD τ).loc main_arg2)) := (piece2_keeps_v7 (U2 m c)).trans (u2_hidden m c)
theorem u3_src (c : Dev nD) : U3 m c (Proc.devRef .tc main_v3) = ReadP.val_main_v3 (F := Ideal) (m ((c.tc : Thread nD τ).loc main_arg1)) := (piece2_keeps_v3 (U2 m c)).trans (u2_src m c)
theorem u3_dst (c : Dev nD) : U3 m c (Proc.devRef .tc main_v6) = ReadP.val_main_v6 (F := Ideal) (m ((c.tc : Thread nD τ).loc main_arg1)) := (piece2_keeps_v6 (U2 m c)).trans (u2_dst m c)
theorem u3_arg3 (c : Dev nD) : U3 m c (Proc.devRef .tc main_arg3) = (m ((c.tc : Thread nD τ).loc main_arg3)) := (piece2_keeps_arg3 (U2 m c)).trans (u2_arg3 m c)
theorem u3_arg4 (c : Dev nD) : U3 m c (Proc.devRef .tc main_arg4) = (m ((c.tc : Thread nD τ).loc main_arg4)) := (piece2_keeps_arg4 (U2 m c)).trans (u2_arg4 m c)
theorem u3_arg5 (c : Dev nD) : U3 m c (Proc.devRef .tc main_arg5) = (m ((c.tc : Thread nD τ).loc main_arg5)) := (piece2_keeps_arg5 (U2 m c)).trans (u2_arg5 m c)
-- after the first aggregation
theorem u4_agg (c : Dev nD) : U4 m c (Proc.devRef .tc main_v46) = ReadP.val_main_v46 (F := Ideal) (m ((c.tc : Thread nD τ).loc main_arg0)) (m ((c.tc : Thread nD τ).loc main_arg1)) (m ((c.tc : Thread nD τ).loc main_arg2)) := piece3_agg (U3 m c) _ _ _ (u3_hidden m c) (u3_src m c) (u3_dst m c) (u3_norm m c)
theorem u4_src (c : Dev nD) : U4 m c (Proc.devRef .tc main_v3) = ReadP.val_main_v3 (F := Ideal) (m ((c.tc : Thread nD τ).loc main_arg1)) := (piece3_keeps_v3 (U3 m c)).trans (u3_src m c)
theorem u4_dst (c : Dev nD) : U4 m c (Proc.devRef .tc main_v6) = ReadP.val_main_v6 (F := Ideal) (m ((c.tc : Thread nD τ).loc main_arg1)) := (piece3_keeps_v6 (U3 m c)).trans (u3_dst m c)
theorem u4_arg3 (c : Dev nD) : U4 m c (Proc.devRef .tc main_arg3) = (m ((c.tc : Thread nD τ).loc main_arg3)) := (piece3_keeps_arg3 (U3 m c)).trans (u3_arg3 m c)
theorem u4_arg4 (c : Dev nD) : U4 m c (Proc.devRef .tc main_arg4) = (m ((c.tc : Thread nD τ).loc main_arg4)) := (piece3_keeps_arg4 (U3 m c)).trans (u3_arg4 m c)
theorem u4_arg5 (c : Dev nD) : U4 m c (Proc.devRef .tc main_arg5) = (m ((c.tc : Thread nD τ).loc main_arg5)) := (piece3_keeps_arg5 (U3 m c)).trans (u3_arg5 m c)
-- after the second product
theorem u5_classes (c : Dev nD) : U5 m c (Proc.devRef .tc main_v51) = ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := piece4_classes (U4 m c) _ _ _ _ _ (u4_agg m c) (u4_arg3 m c) (u4_arg4 m c)
theorem u5_src (c : Dev nD) : U5 m c (Proc.devRef .tc main_v3) = ReadP.val_main_v3 (F := Ideal) (m ((c.tc : Thread nD τ).loc main_arg1)) := (piece4_keeps_v3 (U4 m c)).trans (u4_src m c)
theorem u5_dst (c : Dev nD) : U5 m c (Proc.devRef .tc main_v6) = ReadP.val_main_v6 (F := Ideal) (m ((c.tc : Thread nD τ).loc main_arg1)) := (piece4_keeps_v6 (U4 m c)).trans (u4_dst m c)
theorem u5_arg5 (c : Dev nD) : U5 m c (Proc.devRef .tc main_arg5) = (m ((c.tc : Thread nD τ).loc main_arg5)) := (piece4_keeps_arg5 (U4 m c)).trans (u4_arg5 m c)
-- after the degrees again
theorem u6_deg (c : Dev nD) : U6 m c (Proc.devRef .tc main_v55) = ReadP.val_main_v55 (F := Ideal) (m ((c.tc : Thread nD τ).loc main_arg1)) := piece5_deg (U5 m c) _ (u5_dst m c)
theorem u6_pos (c : Dev nD) : U6 m c (Proc.devRef .tc main_v57) = ReadP.val_main_v57 (F := Ideal) (m ((c.tc : Thread nD τ).loc main_arg1)) := piece5_pos (U5 m c) _ (u5_dst m c)
theorem u6_pos' (c : Dev nD) : U6 m c (Proc.devRef .tc main_v59) = ReadP.val_main_v59 (F := Ideal) (m ((c.tc : Thread nD τ).loc main_arg1)) := piece5_pos' (U5 m c) _ (u5_dst m c)
theorem u6_one (c : Dev nD) : U6 m c (Proc.devRef .tc main_cst_15) = ReadP.val_main_cst_15 (F := Ideal) := piece5_one (U5 m c)
theorem u6_classes (c : Dev nD) : U6 m c (Proc.devRef .tc main_v51) = ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (piece5_keeps_v51 (U5 m c)).trans (u5_classes m c)
theorem u6_src (c : Dev nD) : U6 m c (Proc.devRef .tc main_v3) = ReadP.val_main_v3 (F := Ideal) (m ((c.tc : Thread nD τ).loc main_arg1)) := (piece5_keeps_v3 (U5 m c)).trans (u5_src m c)
theorem u6_dst (c : Dev nD) : U6 m c (Proc.devRef .tc main_v6) = ReadP.val_main_v6 (F := Ideal) (m ((c.tc : Thread nD τ).loc main_arg1)) := (piece5_keeps_v6 (U5 m c)).trans (u5_dst m c)
theorem u6_arg5 (c : Dev nD) : U6 m c (Proc.devRef .tc main_arg5) = (m ((c.tc : Thread nD τ).loc main_arg5)) := (piece5_keeps_arg5 (U5 m c)).trans (u5_arg5 m c)
-- after the edge weight again
theorem u7_norm (c : Dev nD) : U7 m c (Proc.devRef .tc main_v77) = ReadP.val_main_v77 (F := Ideal) (m ((c.tc : Thread nD τ).loc main_arg1)) := piece6_norm (U6 m c) _ (u6_src m c) (u6_dst m c) (u6_deg m c) (u6_pos m c) (u6_pos' m c) (u6_one m c)
theorem u7_classes (c : Dev nD) : U7 m c (Proc.devRef .tc main_v51) = ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (piece6_keeps_v51 (U6 m c)).trans (u6_classes m c)
theorem u7_src (c : Dev nD) : U7 m c (Proc.devRef .tc main_v3) = ReadP.val_main_v3 (F := Ideal) (m ((c.tc : Thread nD τ).loc main_arg1)) := (piece6_keeps_v3 (U6 m c)).trans (u6_src m c)
theorem u7_dst (c : Dev nD) : U7 m c (Proc.devRef .tc main_v6) = ReadP.val_main_v6 (F := Ideal) (m ((c.tc : Thread nD τ).loc main_arg1)) := (piece6_keeps_v6 (U6 m c)).trans (u6_dst m c)
theorem u7_arg5 (c : Dev nD) : U7 m c (Proc.devRef .tc main_arg5) = (m ((c.tc : Thread nD τ).loc main_arg5)) := (piece6_keeps_arg5 (U6 m c)).trans (u6_arg5 m c)
-- after the second aggregation
theorem u8_agg (c : Dev nD) : U8 m c (Proc.devRef .tc main_v90) = ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := piece7_agg (U7 m c) _ _ _ _ _ (u7_classes m c) (u7_src m c) (u7_dst m c) (u7_norm m c)
theorem u8_arg5 (c : Dev nD) : U8 m c (Proc.devRef .tc main_arg5) = (m ((c.tc : Thread nD τ).loc main_arg5)) := (piece7_keeps_arg5 (U7 m c)).trans (u7_arg5 m c)

/-- The fold of the 145 operations at the result buffer is the last stage of the six arguments. -/
theorem result_read (c : Dev nD) :
    after (ops (F := Ideal)) (launchContents m c) (Proc.devRef .tc main_v94) = ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [whole_eq]
  exact piece8_scores (U8 m c) _ _ _ _ _ _ (u8_agg m c) (u8_arg5 m c)

end Cert.ReferenceIdeal.Result

end
-- ==== Proof.ReferenceLine.lean ====
/-
  The reference's run. Every weakly fair execution of the straight line of 145 host operations terminates with every
  buffer at the fold of the operations over the launch contents; the result buffer of that fold is the reference's last
  stage of the six arguments (ReferenceResult), and no operation writes an argument.
-/
import proofs.«154892_j29961691857024_1_alg».proof.Proof.ReferenceResult
import proofs.«154892_j29961691857024_1_alg».proof.Proof.LibSkipWrites

set_option maxRecDepth 16384

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

variable (m : (ℓ : Loc nD τ sig) → Buf (Elt Ideal) ℓ)

/-- No operation writes argument 0. -/
theorem keeps_arg0 (c : Dev nD) : after (ops (F := Ideal)) (launchContents m c) (Proc.devRef .tc main_arg0)
    = launchContents m c (Proc.devRef .tc main_arg0) := by
  skip_writes [ops]
/-- No operation writes argument 1. -/
theorem keeps_arg1 (c : Dev nD) : after (ops (F := Ideal)) (launchContents m c) (Proc.devRef .tc main_arg1)
    = launchContents m c (Proc.devRef .tc main_arg1) := by
  skip_writes [ops]
/-- No operation writes argument 2. -/
theorem keeps_arg2 (c : Dev nD) : after (ops (F := Ideal)) (launchContents m c) (Proc.devRef .tc main_arg2)
    = launchContents m c (Proc.devRef .tc main_arg2) := by
  skip_writes [ops]
/-- No operation writes argument 3. -/
theorem keeps_arg3 (c : Dev nD) : after (ops (F := Ideal)) (launchContents m c) (Proc.devRef .tc main_arg3)
    = launchContents m c (Proc.devRef .tc main_arg3) := by
  skip_writes [ops]
/-- No operation writes argument 4. -/
theorem keeps_arg4 (c : Dev nD) : after (ops (F := Ideal)) (launchContents m c) (Proc.devRef .tc main_arg4)
    = launchContents m c (Proc.devRef .tc main_arg4) := by
  skip_writes [ops]
/-- No operation writes argument 5. -/
theorem keeps_arg5 (c : Dev nD) : after (ops (F := Ideal)) (launchContents m c) (Proc.devRef .tc main_arg5)
    = launchContents m c (Proc.devRef .tc main_arg5) := by
  skip_writes [ops]

set_option maxHeartbeats 4000000 in
/-- Every weakly fair execution of the reference terminates with its result at the last stage of the six arguments and
    the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v94) = ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v94).trans (result_read m c),
      (h c main_arg0).trans (keeps_arg0 m c),
      (h c main_arg1).trans (keeps_arg1 m c),
      (h c main_arg2).trans (keeps_arg2 m c),
      (h c main_arg3).trans (keeps_arg3 m c),
      (h c main_arg4).trans (keeps_arg4 m c),
      (h c main_arg5).trans (keeps_arg5 m c)⟩)
    (run_seq scopedRefs_eq scopedSems_eq defs main (fun _ => ops) main_eq (fun _ => ops_sub) m ρ)

end Cert.ReferenceIdeal.Result

end
-- ==== Proof.lean ====
/-
  A two-layer graph convolution with a log-softmax, kernel against reference, on the extended reals.

  Both programs compute, from node features x [100000, 128], an edge list [2, 1600000], and weights W1, b1, W2, b2:
      A · = the aggregation  out[d] = ∑ over edges (s → d), self loops included, of norm(s, d) · (·)[s],
            norm = dis[s] · dis[d], dis = 1/√deg where deg > 0 and 0 elsewhere, deg the in-degree with self loops;
      layer1 = max (A (x · W1) + b1) 0;      out = log_softmax (A (layer1 · W2) + b2) along each row.
  The aggregation, the degrees and the edge weights are host operations in BOTH programs — the same gathers and
  scatter-adds in the same order (the reference computes the edge weight twice, from the same text) — and are never
  opened here. The kernel replaces four stages by pallas_calls over ten blocks of 10000 rows: the two matrix products
  (bf16 operands, which at the ideal values are the operands themselves), the bias-and-rectifier pass, and the
  bias-and-log-softmax pass. Each pallas_call's output array ends as ONE function of its two input arrays, and that
  function is the reference's own stage (ProjectHidden, Rectify, ProjectClasses, ClassScores): a block's matrix product
  is the rows' part of the whole product, both being the sum over k of left (i, k) · right (k, j); the rectifier and
  log-softmax passes act row by row, and the two spellings of the log-softmax of a row — z − m − log (∑ exp (z − m)) with
  m the row maximum folded from −∞, joined or not once more with −∞ — are one expression. Nothing needs the inputs to be
  finite: no law of the extended reals beyond reading both sides as the same sums and folds is used.

  So the buffer contents at every boundary of the kernel's run are the reference's stage functions of the six arguments
  (KernelEntry, KernelStages), the kernel's result buffer ends holding the reference's last stage (KernelRun for the run
  itself), and the reference's run ends with its result at that same stage (ReferenceResult, ReferenceLine). The idealization rewrote no
  operation, so `preserves` has nothing to state; the three frames are the programs' runs with the result dropped.
-/
import proofs.«154892_j29961691857024_1_alg».proof.Defs
import proofs.«154892_j29961691857024_1_alg».proof.Proof.Gen.Kernel
import proofs.«154892_j29961691857024_1_alg».proof.Proof.Gen.Kernel.Skeleton
import proofs.«154892_j29961691857024_1_alg».proof.Proof.Gen.Kernel.Launch
import proofs.«154892_j29961691857024_1_alg».proof.Proof.Gen.Kernel.Points
import proofs.«154892_j29961691857024_1_alg».proof.Proof.Gen.Kernel.Frame
import proofs.«154892_j29961691857024_1_alg».proof.Proof.Gen.KernelIdeal
import proofs.«154892_j29961691857024_1_alg».proof.Proof.Gen.KernelIdeal.Skeleton
import proofs.«154892_j29961691857024_1_alg».proof.Proof.Gen.KernelIdeal.Launch
import proofs.«154892_j29961691857024_1_alg».proof.Proof.Gen.KernelIdeal.Points
import proofs.«154892_j29961691857024_1_alg».proof.Proof.Gen.KernelIdeal.Frame
import proofs.«154892_j29961691857024_1_alg».proof.Proof.Gen.ReferenceIdeal
import proofs.«154892_j29961691857024_1_alg».proof.Proof.Gen.Pre_finite_inputs
import proofs.«154892_j29961691857024_1_alg».proof.Proof.KernelRun
import proofs.«154892_j29961691857024_1_alg».proof.Proof.KernelStages
import proofs.«154892_j29961691857024_1_alg».proof.Proof.ReferenceLine
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Result.run m ρ)

/-- From memories that agree on the six arguments both idealized programs run, and both end with the result buffer at the
    reference's last stage of the kernel's arguments: the kernel by reading its run's boundaries, the reference by its own
    run at arguments that are the kernel's. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Layers.result_eq m ρ c), (h c).2⟩)
      (Cert.KernelIdeal.Layers.run_result m ρ)
  · refine (θ_run Cert.ReferenceIdeal.defs _ _).mono (fun _ h c => ⟨(h c).1.trans ?_, (h c).2⟩)
      (Cert.ReferenceIdeal.Result.run m' ρ')
    obtain ⟨a0, a1, a2, a3, a4, a5⟩ := hagree c
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
